-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x2048 : Shape := ⟨3, ![256, 64, 2048]⟩
abbrev S256x1024 : Shape := ⟨2, ![256, 1024]⟩
abbrev S2048x1024 : Shape := ⟨2, ![2048, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S256x64x2048 : S_.BroadcastsInDim S256x64x2048 (![] : Fin 0 → Fin S256x64x2048.rank)
  reducesTo_S256x64x2048_S_d0_1_2 : S256x64x2048.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S256x64x2048 .f32) (main_arg1 : FVec F S256x1024 .f32) (main_arg2 : FVec F S2048x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S256x64x2048 .f32 := Host.absf main_arg0
  let main_cst : FVec F S_ .f32 := constant S_ .f32 0x7F800000#32
  let main_v1 : FVec F S256x64x2048 .f32 := broadcastInDim S256x64x2048 ![] bcast_S_S256x64x2048 main_cst
  let main_v2 : IVec S256x64x2048 1 := cmpf .olt main_v0 main_v1
  let main_c : IVec S_ 1 := constantI S_ 1 1#1
  let main_v3 : IVec S_ 1 := (fun x v => Host.reduce IntOp.andi x v reducesTo_S256x64x2048_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S256x64x2048 : Shape := ⟨3, ![256, 64, 2048]⟩
abbrev S256x1024 : Shape := ⟨2, ![256, 1024]⟩
abbrev S2048x1024 : Shape := ⟨2, ![2048, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S1x1024 : Shape := ⟨2, ![1, 1024]⟩
abbrev S256x2048 : Shape := ⟨2, ![256, 2048]⟩
abbrev S256x64 : Shape := ⟨2, ![256, 64]⟩
abbrev S16x64x2048 : Shape := ⟨3, ![16, 64, 2048]⟩
abbrev S16x1024 : Shape := ⟨2, ![16, 1024]⟩
abbrev S16x2048 : Shape := ⟨2, ![16, 2048]⟩
abbrev S16x64 : Shape := ⟨2, ![16, 64]⟩
abbrev S1024x2048 : Shape := ⟨2, ![1024, 2048]⟩
abbrev S16x64x1024 : Shape := ⟨3, ![16, 64, 1024]⟩
abbrev S1x1x1024 : Shape := ⟨3, ![1, 1, 1024]⟩
abbrev S16x1x1024 : Shape := ⟨3, ![16, 1, 1024]⟩
abbrev S16x64x1 : Shape := ⟨3, ![16, 64, 1]⟩
abbrev S1x1x1 : Shape := ⟨3, ![1, 1, 1]⟩
abbrev S16x1 : Shape := ⟨2, ![16, 1]⟩
abbrev S16x1x1 : Shape := ⟨3, ![16, 1, 1]⟩
abbrev S16x16x2048 : Shape := ⟨3, ![16, 16, 2048]⟩
abbrev S16x16x1 : Shape := ⟨3, ![16, 16, 1]⟩
abbrev S256x64x1 : Shape := ⟨3, ![256, 64, 1]⟩

abbrev nBuf : Space → Nat
  | .hbm => 14
  | .vmem => 14
  | .smem => 0
  | _ => 0

abbrev bufTy : (tb : Table) → Fin (tcTables nBuf tb) → BufTy
  | .hbm, ⟨0, _⟩ => ⟨S256x64x2048, .f32⟩
  | .hbm, ⟨1, _⟩ => ⟨S256x1024, .f32⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S2048x1024, .bf16⟩
  | .hbm, ⟨9, _⟩ => ⟨S1024x1024, .bf16⟩
  | .hbm, ⟨10, _⟩ => ⟨S1x1024, .f32⟩
  | .hbm, ⟨11, _⟩ => ⟨S256x2048, .f32⟩
  | .hbm, ⟨12, _⟩ => ⟨S256x64, .f32⟩
  | .hbm, ⟨13, _⟩ => ⟨S256x64x1, .f32⟩
  | .local _ .vmem, ⟨0, _⟩ => ⟨S16x64x2048, .f32⟩
  | .local _ .vmem, ⟨1, _⟩ => ⟨S16x64x2048, .f32⟩
  | .local _ .vmem, ⟨2, _⟩ => ⟨S16x1024, .f32⟩
  | .local _ .vmem, ⟨3, _⟩ => ⟨S16x1024, .f32⟩
  | .local _ .vmem, ⟨4, _⟩ => ⟨S2048x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1x1024, .f32⟩
  | .local _ .vmem, ⟨9, _⟩ => ⟨S1, .f32⟩
  | .local _ .vmem, ⟨10, _⟩ => ⟨S16x2048, .f32⟩
  | .local _ .vmem, ⟨11, _⟩ => ⟨S16x2048, .f32⟩
  | .local _ .vmem, ⟨12, _⟩ => ⟨S16x64, .f32⟩
  | .local _ .vmem, ⟨13, _⟩ => ⟨S16x64, .f32⟩
  | _, _ => ⟨S256x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  transposes_S1024x1_S1x1024_1_0 : S1024x1.Transposes [1, 0] S1x1024
  inb_S16x64x2048_S16x64x2048_0_0_0 : ∀ a, (![0, 0, 0] : Fin 3 → Nat) a + S16x64x2048.size a ≤ S16x64x2048.size a
  h_S16x64x2048 : 0 < S16x64x2048.numel
  shapeCasts_S16x64x2048_S1024x2048 : S16x64x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x1024_S16x64x1024 : S1024x1024.ShapeCasts S16x64x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S16x64x1024 : S1x1x1024.Broadcasts S16x64x1024
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024_S1x1024 : S1024.ShapeCasts S1x1024
  broadcasts_S1x1024_S16x1024 : S1x1024.Broadcasts S16x1024
  shapeCasts_S16x1024_S16x1x1024 : S16x1024.ShapeCasts S16x1x1024
  broadcasts_S16x1x1024_S16x64x1024 : S16x1x1024.Broadcasts S16x64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  reduces_S16x64x1024_S16x64 : S16x64x1024.Reduces [2] S16x64
  shapeCasts_S16x64_S16x64x1 : S16x64.ShapeCasts S16x64x1
  inb_S1_S1_0 : ∀ a, (![0] : Fin 1 → Nat) a + S1.size a ≤ S1.size a
  h_S1 : 0 < S1.numel
  shapeCasts_S1_S1x1x1 : S1.ShapeCasts S1x1x1
  broadcasts_S1x1x1_S16x64x1 : S1x1x1.Broadcasts S16x64x1
  reduces_S16x64x1_S16x1 : S16x64x1.Reduces [1] S16x1
  shapeCasts_S16x1_S16x1x1 : S16x1.ShapeCasts S16x1x1
  broadcasts_S16x1x1_S16x64x1 : S16x1x1.Broadcasts S16x64x1
  shapeCasts_S16x64x1_S16x64 : S16x64x1.ShapeCasts S16x64
  inb_S16x64_S16x64_0_0 : ∀ a, (![0, 0] : Fin 2 → Nat) a + S16x64.size a ≤ S16x64.size a
  h_S16x64 : 0 < S16x64.numel
  inb_S16x64x2048_S16x16x2048_0_0_0 : ∀ a, (![0, 0, 0] : Fin 3 → Nat) a + S16x16x2048.size a ≤ S16x64x2048.size a
  h_S16x16x2048 : 0 < S16x16x2048.numel
  slices_S16x64x1_o0_0_0_S16x16x1 : S16x64x1.Slices ![0, 0, 0] S16x16x1
  broadcasts_S16x16x1_S16x16x2048 : S16x16x1.Broadcasts S16x16x2048
  reduces_S16x16x2048_S16x2048 : S16x16x2048.Reduces [1] S16x2048
  inb_S16x64x2048_S16x16x2048_0_16_0 : ∀ a, (![0, 16, 0] : Fin 3 → Nat) a + S16x16x2048.size a ≤ S16x64x2048.size a
  slices_S16x64x1_o0_16_0_S16x16x1 : S16x64x1.Slices ![0, 16, 0] S16x16x1
  inb_S16x64x2048_S16x16x2048_0_32_0 : ∀ a, (![0, 32, 0] : Fin 3 → Nat) a + S16x16x2048.size a ≤ S16x64x2048.size a
  slices_S16x64x1_o0_32_0_S16x16x1 : S16x64x1.Slices ![0, 32, 0] S16x16x1
  inb_S16x64x2048_S16x16x2048_0_48_0 : ∀ a, (![0, 48, 0] : Fin 3 → Nat) a + S16x16x2048.size a ≤ S16x64x2048.size a
  slices_S16x64x1_o0_48_0_S16x16x1 : S16x64x1.Slices ![0, 48, 0] S16x16x1
  inb_S16x2048_S16x2048_0_0 : ∀ a, (![0, 0] : Fin 2 → Nat) a + S16x2048.size a ≤ S16x2048.size a
  h_S16x2048 : 0 < S16x2048.numel
  bcast_S256x64_S256x64x1_0_1 : S256x64.BroadcastsInDim S256x64x1 (![0, 1] : Fin 2 → Fin S256x64x1.rank)
  dot_S1024x2048_S2048x1024_S1024x1024_1_0_0_1_n_n_wf : DotDims.WF S1024x2048 S2048x1024 S1024x1024 [1] [0] [0] [1] [] []
  dot_S16x1024_S1024x1024_S16x1024_1_0_0_1_n_n_wf : DotDims.WF S16x1024 S1024x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x2048.size a ≤ S256x64x2048.size a
  hwx0_0 : ∀ i : grid0.Coords, EltTy.bits .f32 = 32 ∨ (Rect.block (s := S256x64x2048) S16x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S256x1024.size a
  hwx0_1 : ∀ i : grid0.Coords, EltTy.bits .f32 = 32 ∨ (Rect.block (s := S256x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x2048.size a ≤ S256x2048.size a
  hwx0_8 : ∀ i : grid0.Coords, EltTy.bits .f32 = 32 ∨ (Rect.block (s := S256x2048) S16x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x64.size a ≤ S256x64.size a
  hwx0_9 : ∀ i : grid0.Coords, EltTy.bits .f32 = 32 ∨ (Rect.block (s := S256x64) S16x64.size (cc0_transform_9 i) (hinb0_9 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf

abbrev win0_0 : Pipeline.Window sig grid0 :=
  Pipeline.Window.ofSpec (Memref.whole main_arg0) S16x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S16x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S16x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x64x2048 : Shape := ⟨3, ![256, 64, 2048]⟩
abbrev S256x1024 : Shape := ⟨2, ![256, 1024]⟩
abbrev S2048x1024 : Shape := ⟨2, ![2048, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S256x64x1024 : Shape := ⟨3, ![256, 64, 1024]⟩
abbrev S1x1x1024 : Shape := ⟨3, ![1, 1, 1024]⟩
abbrev S1x1024 : Shape := ⟨2, ![1, 1024]⟩
abbrev S256x1x1024 : Shape := ⟨3, ![256, 1, 1024]⟩
abbrev S256x64x1 : Shape := ⟨3, ![256, 64, 1]⟩
abbrev S1x1x1 : Shape := ⟨3, ![1, 1, 1]⟩
abbrev S_ : Shape := ⟨0, ![]⟩
abbrev S256x1 : Shape := ⟨2, ![256, 1]⟩
abbrev S256x1x1 : Shape := ⟨3, ![256, 1, 1]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S256x64x2048, .f32⟩
  | .hbm, ⟨1, _⟩ => ⟨S256x1024, .f32⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S256x64x1024, .f32⟩
  | .hbm, ⟨9, _⟩ => ⟨S1x1x1024, .f32⟩
  | .hbm, ⟨10, _⟩ => ⟨S256x64x1024, .f32⟩
  | .hbm, ⟨11, _⟩ => ⟨S256x64x1024, .f32⟩
  | .hbm, ⟨12, _⟩ => ⟨S256x1024, .f32⟩
  | .hbm, ⟨13, _⟩ => ⟨S1x1024, .f32⟩
  | .hbm, ⟨14, _⟩ => ⟨S256x1024, .f32⟩
  | .hbm, ⟨15, _⟩ => ⟨S256x1024, .f32⟩
  | .hbm, ⟨16, _⟩ => ⟨S256x1x1024, .f32⟩
  | .hbm, ⟨17, _⟩ => ⟨S256x64x1024, .f32⟩
  | .hbm, ⟨18, _⟩ => ⟨S256x64x1024, .f32⟩
  | .hbm, ⟨19, _⟩ => ⟨S256x64x1024, .f32⟩
  | .hbm, ⟨20, _⟩ => ⟨S256x64x1, .f32⟩
  | .hbm, ⟨21, _⟩ => ⟨S1x1x1, .f32⟩
  | .hbm, ⟨22, _⟩ => ⟨S256x64x1, .f32⟩
  | .hbm, ⟨23, _⟩ => ⟨S256x64x1, .f32⟩
  | .hbm, ⟨24, _⟩ => ⟨S_, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1x1, .f32⟩
  | .hbm, ⟨30, _⟩ => ⟨S256x64x1, .f32⟩
  | .hbm, ⟨31, _⟩ => ⟨S256x64x1, .f32⟩
  | .hbm, ⟨32, _⟩ => ⟨S256x64x1, .f32⟩
  | .hbm, ⟨33, _⟩ => ⟨S_, .f32⟩
  | .hbm, ⟨34, _⟩ => ⟨S256x1, .f32⟩
  | .hbm, ⟨35, _⟩ => ⟨S256x1x1, .f32⟩
  | .hbm, ⟨36, _⟩ => ⟨S256x64x1, .f32⟩
  | .hbm, ⟨37, _⟩ => ⟨S256x64x1, .f32⟩
  | .hbm, ⟨38, _⟩ => ⟨S256x64x2048, .f32⟩
  | .hbm, ⟨39, _⟩ => ⟨S256x64x2048, .f32⟩
  | .hbm, ⟨40, _⟩ => ⟨S_, .f32⟩
  | .hbm, ⟨41, _⟩ => ⟨S256x2048, .f32⟩
  | _, _ => ⟨S256x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S256x64x1024_0_1_2 : S1x1x1024.BroadcastsInDim S256x64x1024 (![0, 1, 2] : Fin 3 → Fin S256x64x1024.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S256x1024_S256x1x1024_0_2 : S256x1024.BroadcastsInDim S256x1x1024 (![0, 2] : Fin 2 → Fin S256x1x1024.rank)
  bcast_S256x1x1024_S256x64x1024_0_1_2 : S256x1x1024.BroadcastsInDim S256x64x1024 (![0, 1, 2] : Fin 3 → Fin S256x64x1024.rank)
  bcast_S1_S1x1x1_2 : S1.BroadcastsInDim S1x1x1 (![2] : Fin 1 → Fin S1x1x1.rank)
  bcast_S1x1x1_S256x64x1_0_1_2 : S1x1x1.BroadcastsInDim S256x64x1 (![0, 1, 2] : Fin 3 → Fin S256x64x1.rank)
  reducesTo_S256x64x1_S256x1_d1 : S256x64x1.ReducesTo [1] S256x1
  h_S_ : 0 < S_.numel
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x64x1_0_1_2 : S256x1x1.BroadcastsInDim S256x64x1 (![0, 1, 2] : Fin 3 → Fin S256x64x1.rank)
  bcast_S256x64x1_S256x64x2048_0_1_2 : S256x64x1.BroadcastsInDim S256x64x2048 (![0, 1, 2] : Fin 3 → Fin S256x64x2048.rank)
  reducesTo_S256x64x2048_S256x2048_d1 : S256x64x2048.ReducesTo [1] S256x2048
  dot_S256x64x2048_S2048x1024_S256x64x1024_2_0_01_1_n_n_wf : DotDims.WF S256x64x2048 S2048x1024 S256x64x1024 [2] [0] [0, 1] [1] [] []
  dot_S256x1024_S1024x1024_S256x1024_1_0_0_1_n_n_wf : DotDims.WF S256x1024 S1024x1024 S256x1024 [1] [0] [0] [1] [] []
  dot_S256x64x1024_S1024x1_S256x64x1_2_0_01_1_n_n_wf : DotDims.WF S256x64x1024 S1024x1 S256x64x1 [2] [0] [0, 1] [1] [] []

variable [Facts₀]

def dot_S256x64x2048_S2048x1024_S256x64x1024_2_0_01_1_n_n : DotDims S256x64x2048 S2048x1024 S256x64x1024 where
  lhsContracting := [2]
  rhsContracting := [0]
  lhsNonContracting := [0, 1]
  rhsNonContracting := [1]
  lhsBatch := []
  rhsBatch := []
  wf := dot_S256x64x2048_S2048x1024_S256x64x1024_2_0_01_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x64x1024_S1024x1_S256x64x1_2_0_01_1_n_n : DotDims S256x64x1024 S1024x1 S256x64x1 where
  lhsContracting := [2]
  rhsContracting := [0]
  lhsNonContracting := [0, 1]
  rhsNonContracting := [1]
  lhsBatch := []
  rhsBatch := []
  wf := dot_S256x64x1024_S1024x1_S256x64x1_2_0_01_1_n_n_wf

class Facts : Prop extends Facts₀ where

variable [Facts]
-- ==== Proof.Attention.lean ====
/-
  Additive attention over one batch row, on the extended reals.

  For one batch row with feature rows `x p` (p over positions, each a vector over the feature axis), a hidden vector `h`,
  weights `W1`, `W2`, biases `b1`, `b2`, a scoring vector `v` and a scalar `vb`:

    logit p   = Σ_u tanh ((Σ_f x p f · W1 f u + b1 u) + (Σ_k h k · W2 k u + b2 u)) · v u  +  vb
    rowMax    = the maximum over p of logit p, folded from -∞
    expRow p  = exp (logit p - rowMax)
    softmax p = expRow p / Σ_q expRow q
    ctx f     = Σ_p softmax p · x p f

  Every operation is the extended reals' own (`Ideal.tanh`, `Ideal.exp`, `Ideal.div`), and -∞ is kept as the f32 word
  that denotes it, so that two programs that spell it by the same word meet without evaluating it.
  The array-level functions read row `b` of each batched argument and apply the row functions.
  Also here: a sum over 64 positions is zero plus four sums over 16 consecutive positions, in that grouping — the only
  rearrangement between a context vector accumulated chunk by chunk and one summed at once; it holds in any commutative
  monoid, so on the extended reals with no finiteness assumed.
-/
import Idealize.ShloMosaic.PureOps.Ideal
import Idealize.ShloMosaic.Lib.ValueIdx

noncomputable section

open scoped BigOperators

namespace Cert.Attention

open Idealize.ShloMosaic Idealize.ShloMosaic.ValueIdx

/-! ## One batch row -/

/-- The attention logit of one position: the scoring vector against tanh of the two projections' sum, plus the scalar bias. -/
def logit {nF nU nR : ℕ} (x : Fin nF → EReal) (h : Fin nR → EReal) (W1 : Fin nF → Fin nU → EReal) (b1 : Fin nU → EReal)
    (W2 : Fin nR → Fin nU → EReal) (b2 : Fin nU → EReal) (v : Fin nU → EReal) (vb : EReal) : EReal :=
  (∑ u : Fin nU, Ideal.tanh (((∑ f : Fin nF, x f * W1 f u) + b1 u) + ((∑ k : Fin nR, h k * W2 k u) + b2 u)) * v u) + vb

/-- The largest logit of a row, folded from -∞ (the f32 word of -∞, unevaluated). -/
def rowMax {nP : ℕ} (l : Fin nP → EReal) : EReal :=
  (Finset.univ : Finset (Fin nP)).fold max (Ideal.ofBits .f32 0xFF800000#32) l

/-- The exponential of a logit less the row's maximum. -/
def expRow {nP : ℕ} (l : Fin nP → EReal) (p : Fin nP) : EReal := Ideal.exp (l p - rowMax l)

/-- The softmax weight of position `p`. -/
def softmaxRow {nP : ℕ} (l : Fin nP → EReal) (p : Fin nP) : EReal := Ideal.div (expRow l p) (∑ q : Fin nP, expRow l q)

/-- The context vector: the feature rows weighted by `a` and summed over the positions. -/
def ctxRow {nP nF : ℕ} (a : Fin nP → EReal) (x : Fin nP → Fin nF → EReal) (f : Fin nF) : EReal := ∑ p : Fin nP, a p * x p f

/-! ## Batched arrays -/

section Arrays

variable {nB nP nF nU nR : ℕ}
variable (X : (⟨3, ![nB, nP, nF]⟩ : Shape).Idx → EReal) (H : (⟨2, ![nB, nR]⟩ : Shape).Idx → EReal)
  (W1 : (⟨2, ![nF, nU]⟩ : Shape).Idx → EReal) (b1 : (⟨1, ![nU]⟩ : Shape).Idx → EReal)
  (W2 : (⟨2, ![nR, nU]⟩ : Shape).Idx → EReal) (b2 : (⟨1, ![nU]⟩ : Shape).Idx → EReal)
  (v : Fin nU → EReal) (vb : EReal)

/-- The logit of batch row `b` at position `p`, from the batched arrays. -/
def logits (b : Fin nB) (p : Fin nP) : EReal :=
  logit (fun f => X (ix3 b p f)) (fun k => H (ix2 b k)) (fun f u => W1 (ix2 f u)) (fun u => b1 (ix1 u))
    (fun k u => W2 (ix2 k u)) (fun u => b2 (ix1 u)) v vb

/-- The attention weight of batch row `b` at position `p`. -/
def weights (b : Fin nB) (p : Fin nP) : EReal := softmaxRow (fun q => logits X H W1 b1 W2 b2 v vb b q) p

/-- The context vector of batch row `b` at feature `f`. -/
def context (b : Fin nB) (f : Fin nF) : EReal :=
  ctxRow (fun p => weights X H W1 b1 W2 b2 v vb b p) (fun p g => X (ix3 b p g)) f

end Arrays

/-! ## The results as arrays, and rows that hold the same data

The attention weights as a `[B, P]` matrix and as the `[B, P, 1]` array, the context vectors as a `[B, F]` matrix, each read
at an index by its coordinates. And the row functions see only one row's data: if row `b` of one set of batched arrays
and row `b'` of another hold the same features and hidden vector, and the weights, biases and scoring data agree, then
the logits, the weights and the context vector of the two rows are equal — a block of batch rows cut from the arrays
computes what the whole arrays give at those rows. -/

section Results

variable {nB nP nF nU nR : ℕ}
variable (X : (⟨3, ![nB, nP, nF]⟩ : Shape).Idx → EReal) (H : (⟨2, ![nB, nR]⟩ : Shape).Idx → EReal)
  (W1 : (⟨2, ![nF, nU]⟩ : Shape).Idx → EReal) (b1 : (⟨1, ![nU]⟩ : Shape).Idx → EReal)
  (W2 : (⟨2, ![nR, nU]⟩ : Shape).Idx → EReal) (b2 : (⟨1, ![nU]⟩ : Shape).Idx → EReal)
  (v : Fin nU → EReal) (vb : EReal)

/-- The attention weights as a `[B, P]` matrix. -/
def weightsMat : (⟨2, ![nB, nP]⟩ : Shape).Idx → EReal := fun i =>
  weights X H W1 b1 W2 b2 v vb (⟨(i 0).val, idx2_lt0 i⟩ : Fin nB) (⟨(i 1).val, idx2_lt1 i⟩ : Fin nP)

/-- The attention weights as a `[B, P, 1]` array. -/
def weightsCol : (⟨3, ![nB, nP, 1]⟩ : Shape).Idx → EReal := fun i =>
  weights X H W1 b1 W2 b2 v vb (⟨(i 0).val, (i 0).isLt⟩ : Fin nB) (⟨(i 1).val, (i 1).isLt⟩ : Fin nP)

/-- The context vectors as a `[B, F]` matrix. -/
def contextMat : (⟨2, ![nB, nF]⟩ : Shape).Idx → EReal := fun i =>
  context X H W1 b1 W2 b2 v vb (⟨(i 0).val, idx2_lt0 i⟩ : Fin nB) (⟨(i 1).val, idx2_lt1 i⟩ : Fin nF)

theorem weightsMat_apply (b : Fin nB) (p : Fin nP) : weightsMat X H W1 b1 W2 b2 v vb (ix2 b p) = weights X H W1 b1 W2 b2 v vb b p := rfl
theorem weightsCol_apply (b : Fin nB) (p : Fin nP) (w : Fin 1) :
    weightsCol X H W1 b1 W2 b2 v vb (ix3 b p w) = weights X H W1 b1 W2 b2 v vb b p := rfl
theorem contextMat_apply (b : Fin nB) (f : Fin nF) : contextMat X H W1 b1 W2 b2 v vb (ix2 b f) = context X H W1 b1 W2 b2 v vb b f := rfl

variable {nB' : ℕ}
variable (X' : (⟨3, ![nB', nP, nF]⟩ : Shape).Idx → EReal) (H' : (⟨2, ![nB', nR]⟩ : Shape).Idx → EReal)
  (W1' : (⟨2, ![nF, nU]⟩ : Shape).Idx → EReal) (b1' : (⟨1, ![nU]⟩ : Shape).Idx → EReal)
  (W2' : (⟨2, ![nR, nU]⟩ : Shape).Idx → EReal) (b2' : (⟨1, ![nU]⟩ : Shape).Idx → EReal)
  (v' : Fin nU → EReal) (vb' : EReal)

/-- Rows with the same data have the same logits. -/
theorem logits_congr (b : Fin nB) (b' : Fin nB') (hX : ∀ q f, X (ix3 b q f) = X' (ix3 b' q f)) (hH : ∀ k, H (ix2 b k) = H' (ix2 b' k))
    (hW1 : ∀ f u, W1 (ix2 f u) = W1' (ix2 f u)) (hb1 : ∀ u, b1 (ix1 u) = b1' (ix1 u)) (hW2 : ∀ k u, W2 (ix2 k u) = W2' (ix2 k u))
    (hb2 : ∀ u, b2 (ix1 u) = b2' (ix1 u)) (hv : ∀ u, v u = v' u) (hvb : vb = vb') (p : Fin nP) :
    logits X H W1 b1 W2 b2 v vb b p = logits X' H' W1' b1' W2' b2' v' vb' b' p := by
  unfold logits logit
  simp only [hX, hH, hW1, hb1, hW2, hb2, hv, hvb]

/-- Rows with the same data have the same attention weights. -/
theorem weights_congr (b : Fin nB) (b' : Fin nB') (hX : ∀ q f, X (ix3 b q f) = X' (ix3 b' q f)) (hH : ∀ k, H (ix2 b k) = H' (ix2 b' k))
    (hW1 : ∀ f u, W1 (ix2 f u) = W1' (ix2 f u)) (hb1 : ∀ u, b1 (ix1 u) = b1' (ix1 u)) (hW2 : ∀ k u, W2 (ix2 k u) = W2' (ix2 k u))
    (hb2 : ∀ u, b2 (ix1 u) = b2' (ix1 u)) (hv : ∀ u, v u = v' u) (hvb : vb = vb') (p : Fin nP) :
    weights X H W1 b1 W2 b2 v vb b p = weights X' H' W1' b1' W2' b2' v' vb' b' p := by
  unfold weights
  rw [funext (logits_congr X H W1 b1 W2 b2 v vb X' H' W1' b1' W2' b2' v' vb' b b' hX hH hW1 hb1 hW2 hb2 hv hvb)]

/-- Rows with the same data have the same context vector. -/
theorem context_congr (b : Fin nB) (b' : Fin nB') (hX : ∀ q f, X (ix3 b q f) = X' (ix3 b' q f)) (hH : ∀ k, H (ix2 b k) = H' (ix2 b' k))
    (hW1 : ∀ f u, W1 (ix2 f u) = W1' (ix2 f u)) (hb1 : ∀ u, b1 (ix1 u) = b1' (ix1 u)) (hW2 : ∀ k u, W2 (ix2 k u) = W2' (ix2 k u))
    (hb2 : ∀ u, b2 (ix1 u) = b2' (ix1 u)) (hv : ∀ u, v u = v' u) (hvb : vb = vb') (f : Fin nF) :
    context X H W1 b1 W2 b2 v vb b f = context X' H' W1' b1' W2' b2' v' vb' b' f := by
  unfold context ctxRow
  refine Finset.sum_congr rfl fun p _ => ?_
  exact congr (congrArg HMul.hMul (weights_congr X H W1 b1 W2 b2 v vb X' H' W1' b1' W2' b2' v' vb' b b' hX hH hW1 hb1 hW2 hb2 hv hvb p))
    (hX p f)

end Results

/-! ## Sixty-four positions as four chunks of sixteen -/

/-- A sum over 64 positions is zero plus the sums over positions 0–15, 16–31, 32–47 and 48–63, added in that order. -/
theorem sum_four_chunks {M : Type*} [AddCommMonoid M] (g : Fin 64 → M) :
    ∑ p : Fin 64, g p
      = (((0 + ∑ q : Fin 16, g ⟨0 + q.val, by omega⟩) + ∑ q : Fin 16, g ⟨16 + q.val, by omega⟩)
          + ∑ q : Fin 16, g ⟨32 + q.val, by omega⟩) + ∑ q : Fin 16, g ⟨48 + q.val, by omega⟩ := by
  rw [zero_add]
  have h1 : ∑ p : Fin 64, g p = ∑ p : Fin 48, g ⟨p.val, by omega⟩ + ∑ q : Fin 16, g ⟨48 + q.val, by omega⟩ :=
    Fin.sum_univ_add (a := 48) (b := 16) g
  have h2 : ∑ p : Fin 48, g ⟨p.val, by omega⟩ = ∑ p : Fin 32, g ⟨p.val, by omega⟩ + ∑ q : Fin 16, g ⟨32 + q.val, by omega⟩ :=
    Fin.sum_univ_add (a := 32) (b := 16) fun p : Fin 48 => g ⟨p.val, by omega⟩
  have h3 : ∑ p : Fin 32, g ⟨p.val, by omega⟩ = ∑ q : Fin 16, g ⟨q.val, by omega⟩ + ∑ q : Fin 16, g ⟨16 + q.val, by omega⟩ :=
    Fin.sum_univ_add (a := 16) (b := 16) fun p : Fin 32 => g ⟨p.val, by omega⟩
  rw [h1, h2, h3]
  simp only [Nat.zero_add]

end Cert.Attention

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.LibPairAxes.lean ====
/-
  A matrix placed on two of three axes, read at an index. An `[a, b]` matrix cast to `[a, b, 1]` or to `[a, 1, b]` keeps
  its entries (the unit axis carries no position), and a broadcast of either to `[a, b, c]` repeats it along the unit axis:
  together they read the matrix at the first two, or the first and third, coordinates. General lemmas over any extents.
-/
import Idealize.ShloMosaic.Lib.Pipeline.Value
import Idealize.ShloMosaic.Lib.ValueIdx

noncomputable section

namespace Cert.LibPairAxes

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, on the first two axes: the matrix at `(i, j)`, whatever the third coordinate. -/
theorem bcast_cast_ab1 {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The two together, on the first and third axes: the matrix at `(i, k)`, whatever the second coordinate. -/
theorem bcast_cast_a1b {a b c : ℕ} (x : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x hc) hb (ix3 i j k) = x (ix2 i k) :=
  (broadcastTo_a1c_abc_apply _ hb i j k).trans (shapeCast_ab_a1b_apply x hc i 0 k)

end Cert.LibPairAxes

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibRank3.lean ====
/-
  Rank-3 arrays read at an index, on the extended reals. A lane sum over the last or over the middle axis of an
  `[a, b, c]` array is the sum of the entries along that axis; a lane maximum over the middle axis is the fold of `max`,
  from the accumulator's value, over the entries along it. A `[c]` vector, or a `[1, c]` row, laid along the last axis as
  `[1, 1, c]` and repeated over the first two axes reads the vector at the last coordinate. An `[a, b, 1]` array with
  its unit axis dropped keeps its entries. General lemmas over any extents.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## Reductions along one axis -/

/-- On the extended reals a lane sum over the LAST axis of an `[a, b, c]` array is, at `(i, j)`, the sum of the entries
    `(i, j, ·)`. -/
theorem multiReduction_add_last {a b c : ℕ} (src : FVec Ideal ⟨3, ![a, b, c]⟩ .f32) (acc : BitVec (FTy.bits .f32))
    (h : (⟨3, ![a, b, c]⟩ : Shape).Reduces [2] ⟨2, ![a, b]⟩) (hφ : FKind.Formats .f32) (hacc : acc = FKind.add.neutral .f32 hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- On the extended reals a lane sum over the MIDDLE axis of an `[a, b, c]` array is, at `(i, k)`, the sum of the entries
    `(i, ·, k)`. -/
theorem multiReduction_add_mid {a b c : ℕ} (src : FVec Ideal ⟨3, ![a, b, c]⟩ .f32) (acc : BitVec (FTy.bits .f32))
    (h : (⟨3, ![a, b, c]⟩ : Shape).Reduces [1] ⟨2, ![a, c]⟩) (hφ : FKind.Formats .f32) (hacc : acc = FKind.add.neutral .f32 hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- On the extended reals a lane maximum over the MIDDLE axis of an `[a, b, c]` array is, at `(i, k)`, the fold of `max`
    from the accumulator's value over the entries `(i, ·, k)`. -/
theorem multiReduction_maximumf_mid {a b c : ℕ} (src : FVec Ideal ⟨3, ![a, b, c]⟩ .f32) (acc : BitVec (FTy.bits .f32))
    (h : (⟨3, ![a, b, c]⟩ : Shape).Reduces [1] ⟨2, ![a, c]⟩) (hφ : FKind.Formats .f32)
    (hacc : acc = FKind.maximumf.neutral .f32 hφ) (i : Fin a) (k : Fin c) :
    multiReduction .maximumf [1] ⟨2, ![a, c]⟩ src acc h hφ hacc (ix2 i k)
      = (Finset.univ : Finset (Fin b)).fold max (Ideal.ofBits .f32 acc) (fun j => src (ix3 i j k)) := by
  refine (Ideal.multiReduction_maximumf_single src acc h hφ hacc (ix2 i k)).trans ?_
  refine congrArg (fun f => Finset.fold max (Ideal.ofBits .f32 acc) f (Finset.univ : Finset (Fin b))) ?_
  exact funext fun j => congrArg src (funext fun ax => Fin.ext (by
    match ax with
    | ⟨0, _⟩ => rfl
    | ⟨1, _⟩ => rfl
    | ⟨2, _⟩ => rfl))

/-! ## A vector along the last axis, repeated over the first two -/

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector cast to `[1, 1, c]` reads, at `(u, w, k)`, the vector at `k`. -/
theorem shapeCast_c_11c_apply {c : ℕ} (x : (⟨1, ![c]⟩ : Shape).Idx → α)
    (h : (⟨1, ![c]⟩ : Shape).ShapeCasts ⟨3, ![1, 1, c]⟩) (u w : Fin 1) (k : Fin c) :
    shapeCast ⟨3, ![1, 1, c]⟩ x h (ix3 u w k) = x (ix1 k) :=
  shapeCast_apply x h _ _ (by
    have hu : u.val = 0 := by omega
    have hw : w.val = 0 := by omega
    rw [Shape.rowMajor_val_one, Shape.rowMajor_val_three]
    show k.val = (u.val * 1 + w.val) * c + k.val
    rw [hu, hw]; simp)

/-- A `[1, c]` row cast to `[1, 1, c]` reads, at `(u, w, k)`, the row at `(0, k)`. -/
theorem shapeCast_1c_11c_apply {c : ℕ} (x : (⟨2, ![1, c]⟩ : Shape).Idx → α)
    (h : (⟨2, ![1, c]⟩ : Shape).ShapeCasts ⟨3, ![1, 1, c]⟩) (u w : Fin 1) (k : Fin c) :
    shapeCast ⟨3, ![1, 1, c]⟩ x h (ix3 u w k) = x (ix2 (0 : Fin 1) k) :=
  shapeCast_apply x h _ _ (by
    have hu : u.val = 0 := by omega
    have hw : w.val = 0 := by omega
    rw [Shape.rowMajor_val_two, Shape.rowMajor_val_three]
    show (0 : ℕ) * c + k.val = (u.val * 1 + w.val) * c + k.val
    rw [hu, hw])

/-- The two together for a vector: laid along the last axis and repeated, it reads the vector at the last coordinate. -/
theorem bcast_cast_c {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix1 k) :=
  (broadcastTo_11c_abc_apply _ hb i j k).trans (shapeCast_c_11c_apply x hc 0 0 k)

/-- The two together for a one-row matrix. -/
theorem bcast_cast_1c {a b c : ℕ} (x : (⟨2, ![1, c]⟩ : Shape).Idx → α)
    (hc : (⟨2, ![1, c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix2 (0 : Fin 1) k) :=
  (broadcastTo_11c_abc_apply _ hb i j k).trans (shapeCast_1c_11c_apply x hc 0 0 k)

/-! ## A trailing unit axis dropped -/

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_two, Shape.rowMajor_val_three]
    show (i.val * b + j.val) * 1 + 0 = i.val * b + j.val
    omega)

end Cert.LibRank3

end
-- ==== Proof.BodyValue.lean ====
/-
  What one grid point stores, read at an index on the extended reals.

  A grid point holds a block of sixteen batch rows: their `[16, 64, 2048]` features and `[16, 1024]` hidden vectors, and
  the whole weights, biases, scoring row and scalar bias. Its body computes four values. The exponentials `e(b, p)`: the
  features, flattened to `[1024, 2048]`, times the first weights and split back, plus the first bias; the hidden vectors
  times the second weights plus the second bias, repeated over the positions; tanh of the sum; against the scoring row by a
  lane sum over the units, plus the scalar bias — the logits — less their maximum over the positions, exponentiated. The
  softmax weights `e(b, p) / Σ_q e(b, q)`. The stored attention block, these with the unit axis dropped. And the stored
  context block: for each of four chunks of sixteen positions, that chunk's feature rows times the chunk's weights (a slice
  of the weights repeated along the features), summed over the chunk, the four sums added to a zero accumulator.

  Each operation is read at explicit coordinates — a matrix product as the sum over the contracted index, a lane sum or
  maximum as the sum or the fold of `max` along its axis, a cast or a broadcast as the operand at the matching coordinates —
  so that the stored values become the row functions of `Attention` applied to the block's own data. The format changes in
  front of the matrix products are the identity here. The one rearrangement is in the context block: sixty-four positions
  as four chunks of sixteen, and each product's two factors in the other order.
-/
import proofs.«138666_j33243046871455_3_alg».proof.Proof.Gen.KernelIdeal.Skeleton
import proofs.«138666_j33243046871455_3_alg».proof.Proof.Attention
import proofs.«138666_j33243046871455_3_alg».proof.Proof.LibFlatten
import proofs.«138666_j33243046871455_3_alg».proof.Proof.LibPairAxes
import proofs.«138666_j33243046871455_3_alg».proof.Proof.LibKeepdimsCols
import proofs.«138666_j33243046871455_3_alg».proof.Proof.LibPlainMatmul
import proofs.«138666_j33243046871455_3_alg».proof.Proof.LibRank3
import Idealize.ShloMosaic.Lib.ValueLayout

noncomputable section

open scoped BigOperators

namespace Cert.KernelIdeal.Body

open Idealize.ShloMosaic Idealize.ShloMosaic.ValueIdx Cert.KernelIdeal Cert.KernelIdeal.Gen

/-- The two products' dimension records are the plain row-by-column ones. -/
theorem dotF_plain : dot_S1024x2048_S2048x1024_S1024x1024_1_0_0_1_n_n = DotDims.plain 1024 2048 1024 := rfl
theorem dotH_plain : dot_S16x1024_S1024x1024_S16x1024_1_0_0_1_n_n = DotDims.plain 16 1024 1024 := rfl

/-- The softmax division: entry `(b, p)` of the exponentials over the sum of row `b`'s exponentials. -/
theorem pay1_apply (e : FVec Ideal S16x64x1 .f32) (b : Fin 16) (p : Fin 64) (u : Fin 1) :
    k0_pay1 (F := Ideal) e (ix3 b p u) = Ideal.div (e (ix3 b p u)) (∑ q : Fin 64, e (ix3 b q (0 : Fin 1))) := by
  unfold k0_pay1
  refine congrArg (Ideal.div (e (ix3 b p u))) ?_
  refine (LibPairAxes.bcast_cast_a1b _ _ _ b p u).trans ?_
  have hu : u = 0 := Subsingleton.elim _ _
  subst hu
  exact LibRank3.multiReduction_add_mid e _ _ _ _ b 0

/-- The stored attention block drops the unit axis. -/
theorem pay2_apply (e : FVec Ideal S16x64x1 .f32) (b : Fin 16) (p : Fin 64) :
    k0_pay2 (F := Ideal) e (ix2 b p) = k0_pay1 (F := Ideal) e (ix3 b p (0 : Fin 1)) := by
  unfold k0_pay2
  exact LibRank3.shapeCast_ab1_ab_apply _ _ b p

/-! ## The logits -/

/-- The feature projection: the block's `[16, 64, 2048]` features, flattened to `[1024, 2048]`, times the `[2048, 1024]`
    weights, split back to `[16, 64, 1024]`: at `(b, p, u)` the sum over the features of row `(b, p)` against column `u`. -/
theorem projF_apply (v0 : FVec Ideal S16x64x2048 .f32) (v3 : FVec Ideal S2048x1024 .bf16) (b : Fin 16) (p : Fin 64) (u : Fin 1024) :
    shapeCast S16x64x1024 (matmul dot_S1024x2048_S2048x1024_S1024x1024_1_0_0_1_n_n none
        (shapeCast S1024x2048 (truncf .bf16 v0 bitsLt_bf16_f32) shapeCasts_S16x64x2048_S1024x2048)
        (shapeCast S2048x1024 v3 shapeCasts_S2048x1024_S2048x1024)
        (constant S1024x1024 .f32 0x00000000#32)) shapeCasts_S1024x1024_S16x64x1024 (ix3 b p u)
      = ∑ f : Fin 2048, v0 (ix3 b p f) * v3 (ix2 f u) := by
  refine (LibFlatten.shapeCast_nc_abc_apply _ _ b p u ⟨b.val * 64 + p.val, by omega⟩ rfl).trans ?_
  rw [dotF_plain]
  refine (LibPlainMatmul.matmul_zero_apply none _ _ _ u).trans ?_
  refine Finset.sum_congr rfl fun f _ => ?_
  refine congr (congrArg HMul.hMul ?_) ?_
  · exact LibFlatten.shapeCast_abc_nc_apply _ _ b p f _ rfl
  · exact congrFun (shapeCast_self v3 _) _

/-- The hidden projection: at `(b, u)` the sum over the hidden vector of row `b` against column `u`. -/
theorem projH_apply (v11 : FVec Ideal S16x1024 .f32) (v13 : FVec Ideal S1024x1024 .bf16) (b : Fin 16) (u : Fin 1024) :
    matmul dot_S16x1024_S1024x1024_S16x1024_1_0_0_1_n_n none (truncf .bf16 v11 bitsLt_bf16_f32)
        (shapeCast S1024x1024 v13 shapeCasts_S1024x1024_S1024x1024) (constant S16x1024 .f32 0x00000000#32) (ix2 b u)
      = ∑ k : Fin 1024, v11 (ix2 b k) * v13 (ix2 k u) := by
  rw [dotH_plain]
  refine (LibPlainMatmul.matmul_zero_apply none _ _ b u).trans ?_
  refine Finset.sum_congr rfl fun k _ => ?_
  exact congrArg (v11 (ix2 b k) * ·) (congrFun (shapeCast_self v13 _) _)

/-- The score: tanh of the feature projection plus its bias, plus the hidden projection plus its bias repeated over
    the positions. -/
theorem score_apply (A : FVec Ideal S16x64x1024 .f32) (v7 : FVec Ideal S1024 .f32) (Hm : FVec Ideal S16x1024 .f32)
    (v16 : FVec Ideal S1024 .f32) (b : Fin 16) (p : Fin 64) (u : Fin 1024) :
    tanh (addf (addf A (broadcastTo S16x64x1024 (shapeCast S1x1x1024 v7 shapeCasts_S1024_S1x1x1024) broadcasts_S1x1x1024_S16x64x1024))
        (broadcastTo S16x64x1024 (shapeCast S16x1x1024 (addf Hm (broadcastTo S16x1024 (shapeCast S1x1024 v16 shapeCasts_S1024_S1x1024)
          broadcasts_S1x1024_S16x1024)) shapeCasts_S16x1024_S16x1x1024) broadcasts_S16x1x1024_S16x64x1024)) (ix3 b p u)
      = Ideal.tanh ((A (ix3 b p u) + v7 (ix1 u)) + (Hm (ix2 b u) + v16 (ix1 u))) := by
  refine congrArg Ideal.tanh ?_
  refine congr (congrArg HAdd.hAdd (congrArg (A (ix3 b p u) + ·) ?_)) ?_
  · exact LibRank3.bcast_cast_c v7 _ _ b p u
  · refine (LibPairAxes.bcast_cast_a1b _ _ _ b p u).trans ?_
    exact congrArg (Hm (ix2 b u) + ·) (LibKeepdimsCols.broadcastTo_shapeCast_row_apply v16 _ _ b u)

/-- The logit: the score against the scoring row, summed over the units, plus the scalar bias. -/
theorem logit_apply (sc : FVec Ideal S16x64x1024 .f32) (v24 : FVec Ideal S1x1024 .f32) (v31 : FVec Ideal S1 .f32)
    (b : Fin 16) (p : Fin 64) (w : Fin 1) :
    addf (shapeCast S16x64x1 (multiReduction .add [2] S16x64 (mulf sc (broadcastTo S16x64x1024
          (shapeCast S1x1x1024 (shapeCast S1x1024 v24 shapeCasts_S1x1024_S1x1024) shapeCasts_S1x1024_S1x1x1024) broadcasts_S1x1x1024_S16x64x1024))
          0x00000000#32 reduces_S16x64x1024_S16x64 (.inl rfl) rfl) shapeCasts_S16x64_S16x64x1)
        (broadcastTo S16x64x1 (shapeCast S1x1x1 v31 shapeCasts_S1_S1x1x1) broadcasts_S1x1x1_S16x64x1) (ix3 b p w)
      = (∑ u : Fin 1024, sc (ix3 b p u) * v24 (ix2 (0 : Fin 1) u)) + v31 (ix1 (0 : Fin 1)) := by
  have hw : w = 0 := Subsingleton.elim _ _
  subst hw
  refine congr (congrArg HAdd.hAdd ?_) ?_
  · refine (LibPairAxes.shapeCast_ab_ab1_apply _ _ b p 0).trans ?_
    refine (LibRank3.multiReduction_add_last _ _ _ _ _ b p).trans ?_
    refine Finset.sum_congr rfl fun u _ => congrArg (sc (ix3 b p u) * ·) ?_
    refine (LibRank3.bcast_cast_1c _ _ _ b p u).trans ?_
    exact congrFun (shapeCast_self v24 _) _
  · exact LibRank3.bcast_cast_c v31 _ _ b p 0

/-- The exponential of a logit less its row's maximum (the lane maximum over the positions, from -∞). -/
theorem softexp_apply (lg : FVec Ideal S16x64x1 .f32) (b : Fin 16) (p : Fin 64) (w : Fin 1) :
    exp (subf lg (broadcastTo S16x64x1 (shapeCast S16x1x1 (multiReduction .maximumf [1] S16x1 lg 0xFF800000#32
        reduces_S16x64x1_S16x1 (.inl rfl) rfl) shapeCasts_S16x1_S16x1x1) broadcasts_S16x1x1_S16x64x1)) (ix3 b p w)
      = Attention.expRow (fun q => lg (ix3 b q (0 : Fin 1))) p := by
  have hw : w = 0 := Subsingleton.elim _ _
  subst hw
  unfold Attention.expRow Attention.rowMax
  refine congrArg Ideal.exp (congrArg (lg (ix3 b p 0) - ·) ?_)
  refine (LibPairAxes.bcast_cast_a1b _ _ _ b p 0).trans ?_
  exact LibRank3.multiReduction_maximumf_mid lg _ _ _ _ b 0

/-- The first part of the body: the exponentials, at `(b, p)`, of row `b`'s logits. -/
theorem pay4_apply (v0 : FVec Ideal S16x64x2048 .f32) (v3 : FVec Ideal S2048x1024 .bf16) (v7 : FVec Ideal S1024 .f32)
    (v11 : FVec Ideal S16x1024 .f32) (v13 : FVec Ideal S1024x1024 .bf16) (v16 : FVec Ideal S1024 .f32)
    (v24 : FVec Ideal S1x1024 .f32) (v31 : FVec Ideal S1 .f32) (b : Fin 16) (p : Fin 64) (w : Fin 1) :
    k0_pay4 (F := Ideal) v0 v3 v7 v11 v13 v16 v24 v31 (ix3 b p w)
      = Attention.expRow (fun q => Attention.logits v0 v11 v3 v7 v13 v16 (fun u => v24 (ix2 (0 : Fin 1) u)) (v31 (ix1 (0 : Fin 1))) b q) p := by
  unfold k0_pay4
  refine (softexp_apply _ b p w).trans ?_
  refine congrArg (fun l => Attention.expRow l p) (funext fun q => ?_)
  refine (logit_apply _ v24 v31 b q 0).trans ?_
  unfold Attention.logits Attention.logit
  refine congrArg (· + v31 (ix1 (0 : Fin 1))) (Finset.sum_congr rfl fun u _ => congrArg (· * v24 (ix2 (0 : Fin 1) u)) ?_)
  refine (score_apply _ v7 _ v16 b q u).trans ?_
  refine congrArg Ideal.tanh (congr (congrArg HAdd.hAdd (congrArg (· + v7 (ix1 u)) ?_)) (congrArg (· + v16 (ix1 u)) ?_))
  · exact projF_apply v0 v3 b q u
  · exact projH_apply v11 v13 b u

/-! ## The context vector, chunk by chunk -/

/-- One chunk of sixteen positions starting at `o`: the chunk's feature rows times the weights of positions `o … o+15`,
    summed over the chunk. -/
theorem chunk_apply (Xc : FVec Ideal S16x16x2048 .f32) (A : FVec Ideal S16x64x1 .f32) (o : ℕ) (ho : o + 16 ≤ 64)
    (hs : S16x64x1.Slices ![0, o, 0] S16x16x1) (b : Fin 16) (f : Fin 2048) :
    multiReduction .add [1] S16x2048 (mulf Xc (broadcastTo S16x16x2048 (extractStridedSlice S16x16x1 ![0, o, 0] A hs)
        broadcasts_S16x16x1_S16x16x2048)) 0x00000000#32 reduces_S16x16x2048_S16x2048 (.inl rfl) rfl (ix2 b f)
      = ∑ q : Fin 16, Xc (ix3 b q f) * A (ix3 b (⟨o + q.val, by omega⟩ : Fin 64) (0 : Fin 1)) := by
  refine (LibRank3.multiReduction_add_mid _ _ _ _ _ b f).trans ?_
  refine Finset.sum_congr rfl fun q _ => congrArg (Xc (ix3 b q f) * ·) ?_
  refine (LibPairAxes.broadcastTo_ab1_abc_apply _ _ b q f).trans ?_
  exact slice3_axis1_eq o A hs b q 0

/-- The stored context block: zero, plus the four chunks' sums in order, each chunk's feature rows weighted by the softmax
    weights of its positions. -/
theorem pay3_apply (e : FVec Ideal S16x64x1 .f32) (v47 v53 v59 v65 : FVec Ideal S16x16x2048 .f32) (b : Fin 16) (f : Fin 2048) :
    k0_pay3 (F := Ideal) e v47 v53 v59 v65 (ix2 b f)
      = ((((0 : EReal) + ∑ q : Fin 16, v47 (ix3 b q f) * k0_pay1 (F := Ideal) e (ix3 b (⟨0 + q.val, by omega⟩ : Fin 64) (0 : Fin 1)))
            + ∑ q : Fin 16, v53 (ix3 b q f) * k0_pay1 (F := Ideal) e (ix3 b (⟨16 + q.val, by omega⟩ : Fin 64) (0 : Fin 1)))
          + ∑ q : Fin 16, v59 (ix3 b q f) * k0_pay1 (F := Ideal) e (ix3 b (⟨32 + q.val, by omega⟩ : Fin 64) (0 : Fin 1)))
        + ∑ q : Fin 16, v65 (ix3 b q f) * k0_pay1 (F := Ideal) e (ix3 b (⟨48 + q.val, by omega⟩ : Fin 64) (0 : Fin 1)) := by
  unfold k0_pay3
  refine congr (congrArg HAdd.hAdd (congr (congrArg HAdd.hAdd (congr (congrArg HAdd.hAdd (congr (congrArg HAdd.hAdd ?_) ?_)) ?_)) ?_)) ?_
  · exact Ideal.ofBits_zero_f32
  · exact chunk_apply v47 _ 0 (by omega) _ b f
  · exact chunk_apply v53 _ 16 (by omega) _ b f
  · exact chunk_apply v59 _ 32 (by omega) _ b f
  · exact chunk_apply v65 _ 48 (by omega) _ b f

/-! ## A block's two stored values, as functions of the block's own data -/

/-- The softmax weights of the block: at `(b, p)` the weight of position `p` in the block's row `b`. -/
theorem weightBlock_apply (x0 : FVec Ideal S16x64x2048 .f32) (x1 : FVec Ideal S16x1024 .f32) (x2 : FVec Ideal S2048x1024 .bf16) (x3 : FVec Ideal S1024 .f32) (x4 : FVec Ideal S1024x1024 .bf16) (x5 : FVec Ideal S1024 .f32) (x6 : FVec Ideal S1x1024 .f32) (x7 : FVec Ideal S1 .f32) (b : Fin 16) (p : Fin 64) (w : Fin 1) :
    k0_pay1 (F := Ideal) (k0_pay4 (F := Ideal) x0 x2 x3 x1 x4 x5 x6 x7) (ix3 b p w) = Attention.weights x0 x1 x2 x3 x4 x5 (fun u => x6 (ix2 (0 : Fin 1) u)) (x7 (ix1 (0 : Fin 1))) b p := by
  refine (pay1_apply _ b p w).trans ?_
  unfold Attention.weights Attention.softmaxRow
  refine congr (congrArg Ideal.div ?_) ?_
  · exact pay4_apply x0 x2 x3 x1 x4 x5 x6 x7 b p w
  · exact Finset.sum_congr rfl fun q _ => pay4_apply x0 x2 x3 x1 x4 x5 x6 x7 b q 0

/-- THE STORED ATTENTION BLOCK: the block's softmax weights, the unit axis dropped. -/
theorem attnBlock_apply (x0 : FVec Ideal S16x64x2048 .f32) (x1 : FVec Ideal S16x1024 .f32) (x2 : FVec Ideal S2048x1024 .bf16) (x3 : FVec Ideal S1024 .f32) (x4 : FVec Ideal S1024x1024 .bf16) (x5 : FVec Ideal S1024 .f32) (x6 : FVec Ideal S1x1024 .f32) (x7 : FVec Ideal S1 .f32) (b : Fin 16) (p : Fin 64) :
    k0_pay2 (F := Ideal) (k0_pay4 (F := Ideal) x0 x2 x3 x1 x4 x5 x6 x7) (ix2 b p) = Attention.weights x0 x1 x2 x3 x4 x5 (fun u => x6 (ix2 (0 : Fin 1) u)) (x7 (ix1 (0 : Fin 1))) b p :=
  (pay2_apply _ b p).trans (weightBlock_apply x0 x1 x2 x3 x4 x5 x6 x7 b p 0)

/-- THE STORED CONTEXT BLOCK: when the four chunk loads hold positions 0–15, 16–31, 32–47 and 48–63 of the block's
    features, the chunk sums add up to the block's context vectors — a sum over the 64 positions split in four, each
    product's factors swapped. -/
theorem ctxBlock_apply (x0 : FVec Ideal S16x64x2048 .f32) (x1 : FVec Ideal S16x1024 .f32) (x2 : FVec Ideal S2048x1024 .bf16) (x3 : FVec Ideal S1024 .f32) (x4 : FVec Ideal S1024x1024 .bf16) (x5 : FVec Ideal S1024 .f32) (x6 : FVec Ideal S1x1024 .f32) (x7 : FVec Ideal S1 .f32) (v47 v53 v59 v65 : FVec Ideal S16x16x2048 .f32)
    (h0 : ∀ (b : Fin 16) (q : Fin 16) (f : Fin 2048), v47 (ix3 b q f) = x0 (ix3 b (⟨0 + q.val, by omega⟩ : Fin 64) f))
    (h1 : ∀ (b : Fin 16) (q : Fin 16) (f : Fin 2048), v53 (ix3 b q f) = x0 (ix3 b (⟨16 + q.val, by omega⟩ : Fin 64) f))
    (h2 : ∀ (b : Fin 16) (q : Fin 16) (f : Fin 2048), v59 (ix3 b q f) = x0 (ix3 b (⟨32 + q.val, by omega⟩ : Fin 64) f))
    (h3 : ∀ (b : Fin 16) (q : Fin 16) (f : Fin 2048), v65 (ix3 b q f) = x0 (ix3 b (⟨48 + q.val, by omega⟩ : Fin 64) f))
    (b : Fin 16) (f : Fin 2048) :
    k0_pay3 (F := Ideal) (k0_pay4 (F := Ideal) x0 x2 x3 x1 x4 x5 x6 x7) v47 v53 v59 v65 (ix2 b f) = Attention.context x0 x1 x2 x3 x4 x5 (fun u => x6 (ix2 (0 : Fin 1) u)) (x7 (ix1 (0 : Fin 1))) b f := by
  refine (pay3_apply _ v47 v53 v59 v65 b f).trans ?_
  unfold Attention.context Attention.ctxRow
  refine Eq.symm ((Attention.sum_four_chunks (fun p : Fin 64 => Attention.weights x0 x1 x2 x3 x4 x5 (fun u => x6 (ix2 (0 : Fin 1) u)) (x7 (ix1 (0 : Fin 1))) b p * x0 (ix3 b p f))).trans ?_)
  refine congr (congrArg HAdd.hAdd (congr (congrArg HAdd.hAdd (congr (congrArg HAdd.hAdd (congrArg ((0 : EReal) + ·) ?_)) ?_)) ?_)) ?_
  · refine Finset.sum_congr rfl fun q _ => ?_
    rw [h0 b q f, weightBlock_apply x0 x1 x2 x3 x4 x5 x6 x7 b _ 0]
    exact mul_comm _ _
  · refine Finset.sum_congr rfl fun q _ => ?_
    rw [h1 b q f, weightBlock_apply x0 x1 x2 x3 x4 x5 x6 x7 b _ 0]
    exact mul_comm _ _
  · refine Finset.sum_congr rfl fun q _ => ?_
    rw [h2 b q f, weightBlock_apply x0 x1 x2 x3 x4 x5 x6 x7 b _ 0]
    exact mul_comm _ _
  · refine Finset.sum_congr rfl fun q _ => ?_
    rw [h3 b q f, weightBlock_apply x0 x1 x2 x3 x4 x5 x6 x7 b _ 0]
    exact mul_comm _ _

end Cert.KernelIdeal.Body

end
-- ==== Proof.KernelRun.lean ====
/-
  From the blocks to the arrays: what the kernel program's two results hold after its run.

  Before the region the program changes the format of the two weight matrices (the identity on the extended reals) and
  transposes the `[1024, 1]` scoring matrix to a row; so each window's block at grid point `t`, read off the array the region
  finds, is read off the program's arguments: rows `16·t … 16·t+15` of the features and of the hidden vectors, and the
  whole of every other operand, the scoring row at `(0, u)` being the argument at `(u, 0)`.
  What point `t` writes back to each result is then block `t` of ONE function of the arguments — the attention weights, the
  context vectors — because a row's weights and context vector depend on that row's data alone. Row `r` of either result
  lies in the block of point `r / 16`, so the sixteen blocks cover the array and the array ends at that function.
  After the region one host operation gives the `[256, 64]` attention matrix a trailing unit axis; the returned array reads
  the matrix at its first two coordinates.
-/
import proofs.«138666_j33243046871455_3_alg».proof.Proof.Gen.KernelIdeal.Frame
import proofs.«138666_j33243046871455_3_alg».proof.Proof.BodyValue
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.RunValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The arrays the region finds that a host operation wrote -/

/-- The first weight matrix as the region finds it: the argument, its format changed. -/
theorem V_main_v0 (c : Dev nD) :
    @Eq (FVec Ideal S2048x1024 .bf16) (V m c main_v0) (truncf (F := Ideal) .bf16 (m ((c : Thread nD τ).loc main_arg2)) bitsLt_bf16_f32) := by
  show StableHlo.after hostOps0 (fun b => m (c, b)) (Proc.devRef .tc main_v0) = _
  after_results
  try rfl

/-- The second weight matrix as the region finds it: the argument, its format changed. -/
theorem V_main_v1 (c : Dev nD) :
    @Eq (FVec Ideal S1024x1024 .bf16) (V m c main_v1) (truncf (F := Ideal) .bf16 (m ((c : Thread nD τ).loc main_arg4)) bitsLt_bf16_f32) := by
  show StableHlo.after hostOps0 (fun b => m (c, b)) (Proc.devRef .tc main_v1) = _
  after_results
  try rfl

/-- The scoring vector as the region finds it: the `[1024, 1]` argument transposed to a row. -/
theorem V_main_v2 (c : Dev nD) :
    @Eq (FVec Ideal S1x1024 .f32) (V m c main_v2) (transpose S1x1024 [1, 0] (m ((c : Thread nD τ).loc main_arg6)) transposes_S1024x1_S1x1024_1_0) := by
  show StableHlo.after hostOps0 (fun b => m (c, b)) (Proc.devRef .tc main_v2) = _
  after_results
  try rfl

/-! ## The windows' index maps over the grid -/

theorem t_lt (t : Fin cfg0.N) : t.val < 16 := lt_of_lt_of_eq t.isLt N_0

/-- Point `t` takes block `t` of the features, the hidden vectors and the two results along the batch axis, and the one
    block of every other operand. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each input window's block at a point, read off the argument arrays -/

/-- Row `b` of the features block at point `t` is row `16·t + b` of the features. -/
theorem blk0_apply (c : Dev nD) (t : Fin cfg0.N) (b : Fin 16) (q : Fin 64) (f : Fin 2048) :
    (iblk m c 0 t : S16x64x2048.Idx → EReal) (ix3 b q f)
      = (m ((c : Thread nD τ).loc main_arg0)) (ix3 (⟨t.val * 16 + b.val, by have := t_lt t; omega⟩ : Fin 256) q f) := by
  show V m c main_arg0 (((cfg0.win 0).blk t).view.emb (ix3 b q f)) = _
  rw [V_main_arg0]
  refine congrArg (m ((c : Thread nD τ).loc main_arg0)) (funext fun a => Fin.ext ?_)
  obtain ⟨e0, e1, e2, -⟩ := idx_facts t
  match a with
  | ⟨0, _⟩ => show win0_0.index t (0 : Fin 3) * 16 + 1 * b.val = t.val * 16 + b.val; omega
  | ⟨1, _⟩ => show win0_0.index t (1 : Fin 3) * 64 + 1 * q.val = q.val; omega
  | ⟨2, _⟩ => show win0_0.index t (2 : Fin 3) * 2048 + 1 * f.val = f.val; omega

/-- Row `b` of the hidden block at point `t` is row `16·t + b` of the hidden vectors. -/
theorem blk1_apply (c : Dev nD) (t : Fin cfg0.N) (b : Fin 16) (k : Fin 1024) :
    (iblk m c 1 t : S16x1024.Idx → EReal) (ix2 b k)
      = (m ((c : Thread nD τ).loc main_arg1)) (ix2 (⟨t.val * 16 + b.val, by have := t_lt t; omega⟩ : Fin 256) k) := by
  show V m c main_arg1 (((cfg0.win 1).blk t).view.emb (ix2 b k)) = _
  rw [V_main_arg1]
  refine congrArg (m ((c : Thread nD τ).loc main_arg1)) (funext fun a => Fin.ext ?_)
  obtain ⟨-, -, -, e0, e1, -⟩ := idx_facts t
  match a with
  | ⟨0, _⟩ => show win0_1.index t (0 : Fin 2) * 16 + 1 * b.val = t.val * 16 + b.val; omega
  | ⟨1, _⟩ => show win0_1.index t (1 : Fin 2) * 1024 + 1 * k.val = k.val; omega

/-- The first weight matrix's one block is the argument matrix. -/
theorem blk2_apply (c : Dev nD) (t : Fin cfg0.N) (f : Fin 2048) (u : Fin 1024) :
    (iblk m c 2 t : S2048x1024.Idx → EReal) (ix2 f u) = (m ((c : Thread nD τ).loc main_arg2)) (ix2 f u) := by
  show V m c main_v0 (((cfg0.win 2).blk t).view.emb (ix2 f u)) = _
  rw [V_main_v0]
  refine congrArg (m ((c : Thread nD τ).loc main_arg2)) (funext fun a => Fin.ext ?_)
  obtain ⟨-, -, -, -, -, e0, e1, -⟩ := idx_facts t
  match a with
  | ⟨0, _⟩ => show win0_2.index t (0 : Fin 2) * 2048 + 1 * f.val = f.val; omega
  | ⟨1, _⟩ => show win0_2.index t (1 : Fin 2) * 1024 + 1 * u.val = u.val; omega

/-- The first bias's one block is the argument vector. -/
theorem blk3_apply (c : Dev nD) (t : Fin cfg0.N) (u : Fin 1024) :
    (iblk m c 3 t : S1024.Idx → EReal) (ix1 u) = (m ((c : Thread nD τ).loc main_arg3)) (ix1 u) := by
  show V m c main_arg3 (((cfg0.win 3).blk t).view.emb (ix1 u)) = _
  rw [V_main_arg3]
  refine congrArg (m ((c : Thread nD τ).loc main_arg3)) (funext fun a => Fin.ext ?_)
  obtain ⟨-, -, -, -, -, -, -, e0, -⟩ := idx_facts t
  match a with
  | ⟨0, _⟩ => show win0_3.index t (0 : Fin 1) * 1024 + 1 * u.val = u.val; omega

/-- The second weight matrix's one block is the argument matrix. -/
theorem blk4_apply (c : Dev nD) (t : Fin cfg0.N) (k : Fin 1024) (u : Fin 1024) :
    (iblk m c 4 t : S1024x1024.Idx → EReal) (ix2 k u) = (m ((c : Thread nD τ).loc main_arg4)) (ix2 k u) := by
  show V m c main_v1 (((cfg0.win 4).blk t).view.emb (ix2 k u)) = _
  rw [V_main_v1]
  refine congrArg (m ((c : Thread nD τ).loc main_arg4)) (funext fun a => Fin.ext ?_)
  obtain ⟨-, -, -, -, -, -, -, -, e0, e1, -⟩ := idx_facts t
  match a with
  | ⟨0, _⟩ => show win0_4.index t (0 : Fin 2) * 1024 + 1 * k.val = k.val; omega
  | ⟨1, _⟩ => show win0_4.index t (1 : Fin 2) * 1024 + 1 * u.val = u.val; omega

/-- The second bias's one block is the argument vector. -/
theorem blk5_apply (c : Dev nD) (t : Fin cfg0.N) (u : Fin 1024) :
    (iblk m c 5 t : S1024.Idx → EReal) (ix1 u) = (m ((c : Thread nD τ).loc main_arg5)) (ix1 u) := by
  show V m c main_arg5 (((cfg0.win 5).blk t).view.emb (ix1 u)) = _
  rw [V_main_arg5]
  refine congrArg (m ((c : Thread nD τ).loc main_arg5)) (funext fun a => Fin.ext ?_)
  obtain ⟨-, -, -, -, -, -, -, -, -, -, e0, -⟩ := idx_facts t
  match a with
  | ⟨0, _⟩ => show win0_5.index t (0 : Fin 1) * 1024 + 1 * u.val = u.val; omega

/-- The scoring row's one block, at `(0, u)`, is the argument column at `(u, 0)`. -/
theorem blk6_apply (c : Dev nD) (t : Fin cfg0.N) (u : Fin 1024) :
    (iblk m c 6 t : S1x1024.Idx → EReal) (ix2 (0 : Fin 1) u) = (m ((c : Thread nD τ).loc main_arg6)) (ix2 u (0 : Fin 1)) := by
  show V m c main_v2 (((cfg0.win 6).blk t).view.emb (ix2 (0 : Fin 1) u)) = _
  rw [V_main_v2]
  have he : ((cfg0.win 6).blk t).view.emb (ix2 (0 : Fin 1) u) = ix2 (0 : Fin 1) u := by
    funext a; apply Fin.ext
    obtain ⟨-, -, -, -, -, -, -, -, -, -, -, e0, e1, -⟩ := idx_facts t
    match a with
    | ⟨0, _⟩ => show win0_6.index t (0 : Fin 2) * 1 + 1 * 0 = 0; omega
    | ⟨1, _⟩ => show win0_6.index t (1 : Fin 2) * 1024 + 1 * u.val = u.val; omega
  rw [he]
  exact transpose_ix2_apply _ _ (0 : Fin 1) u

/-- The scalar bias's one block is the argument. -/
theorem blk7_apply (c : Dev nD) (t : Fin cfg0.N) :
    (iblk m c 7 t : S1.Idx → EReal) (ix1 (0 : Fin 1)) = (m ((c : Thread nD τ).loc main_arg7)) (ix1 (0 : Fin 1)) := by
  show V m c main_arg7 (((cfg0.win 7).blk t).view.emb (ix1 (0 : Fin 1))) = _
  rw [V_main_arg7]
  refine congrArg (m ((c : Thread nD τ).loc main_arg7)) (funext fun a => Fin.ext ?_)
  obtain ⟨-, -, -, -, -, -, -, -, -, -, -, -, -, e0, -⟩ := idx_facts t
  match a with
  | ⟨0, _⟩ => show win0_7.index t (0 : Fin 1) * 1 + 1 * 0 = 0; omega

/-! ## The two results as functions of the program's arguments -/

/-- The attention weights of the argument arrays, as the `[256, 64]` matrix the region's second result holds. -/
def attnOf (c : Dev nD) : S256x64.Idx → EReal :=
  Attention.weightsMat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (fun u => (m ((c : Thread nD τ).loc main_arg6)) (ix2 u (0 : Fin 1))) ((m ((c : Thread nD τ).loc main_arg7)) (ix1 (0 : Fin 1)))

/-- The same as the `[256, 64, 1]` array the program returns. -/
def attnColOf (c : Dev nD) : S256x64x1.Idx → EReal :=
  Attention.weightsCol (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (fun u => (m ((c : Thread nD τ).loc main_arg6)) (ix2 u (0 : Fin 1))) ((m ((c : Thread nD τ).loc main_arg7)) (ix1 (0 : Fin 1)))

/-- The context vectors of the argument arrays, as the `[256, 2048]` matrix the program returns. -/
def ctxOf (c : Dev nD) : S256x2048.Idx → EReal :=
  Attention.contextMat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (fun u => (m ((c : Thread nD τ).loc main_arg6)) (ix2 u (0 : Fin 1))) ((m ((c : Thread nD τ).loc main_arg7)) (ix1 (0 : Fin 1)))

/-! ## What point `t` writes back -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-- A load of sixteen positions of a features block from position `o` reads the block's positions `o … o+15`. -/
theorem ld_chunk (x0 : Vec Ideal S16x64x2048 .f32) (o : ℕ) (ho : o + 16 ≤ 64)
    (inb : ∀ a, (![0, o, 0] : Fin 3 → ℕ) a + S16x16x2048.size a ≤ S16x64x2048.size a) (b : Fin 16) (q : Fin 16) (f : Fin 2048) :
    View.ld x0 (Rect.unit (s := S16x64x2048) ![0, o, 0] S16x16x2048.size inb) (ix3 b q f)
      = x0 (ix3 b (⟨o + q.val, by omega⟩ : Fin 64) f) := by
  refine congrArg x0 (funext fun a => Fin.ext ?_)
  match a with
  | ⟨0, _⟩ => show 0 + 1 * b.val = b.val; omega
  | ⟨1, _⟩ => show o + 1 * q.val = o + q.val; omega
  | ⟨2, _⟩ => show 0 + 1 * f.val = f.val; omega

/-- WHAT POINT `t` WRITES BACK TO THE ATTENTION MATRIX is block `t` of the attention weights of the argument arrays: the
    block's stored values are the weights of the block's own rows, and row `b` of block `t` holds the data of row
    `16·t + b` of the arguments. -/
theorem flushed9_eq (c : Dev nD) (t : Fin cfg0.N) :
    (dats m 0 c).flushed 9 t = ((cfg0.win 9).blk t).view.read (Elt Ideal) (attnOf m c) := by
  show (cfg0.win 9).cut (grid0.coords t) ((dats m 0 c).after 9 t) = _
  rw [after0_9]
  unfold out0_9
  rw [View.canon_unit_zero hz2]
  simp only [View.ld_unit_zero (S := S16x64x2048) hz3, View.ld_unit_zero (S := S2048x1024) hz2, View.ld_unit_zero (S := S1024) hz1, View.ld_unit_zero (S := S16x1024) hz2, View.ld_unit_zero (S := S1024x1024) hz2, View.ld_unit_zero (S := S1x1024) hz2, View.ld_unit_zero (S := S1) hz1]
  refine funext fun (j : S16x64.Idx) => ?_
  obtain ⟨b, p, rfl⟩ : ∃ (b : Fin 16) (p : Fin 64), j = ix2 b p := ⟨j 0, j 1, eq_ix2 j⟩
  refine (Body.attnBlock_apply (iblk m c 0 t) (iblk m c 1 t) (iblk m c 2 t) (iblk m c 3 t) (iblk m c 4 t) (iblk m c 5 t) (iblk m c 6 t) (iblk m c 7 t) b p).trans ?_
  have he : ((cfg0.win 9).blk t).view.emb (ix2 b p) = ix2 (⟨t.val * 16 + b.val, by have := t_lt t; omega⟩ : Fin 256) p := by
    funext a; apply Fin.ext
    obtain ⟨e0, e1⟩ := idx9 t
    match a with
    | ⟨0, _⟩ => show win0_9.index t (0 : Fin 2) * 16 + 1 * b.val = t.val * 16 + b.val; omega
    | ⟨1, _⟩ => show win0_9.index t (1 : Fin 2) * 64 + 1 * p.val = p.val; omega
  show _ = attnOf m c (((cfg0.win 9).blk t).view.emb (ix2 b p))
  rw [he]
  exact Attention.weights_congr _ _ _ _ _ _ _ _ _ _ _ _ _ _ _ _ b _ (blk0_apply m c t b) (blk1_apply m c t b) (blk2_apply m c t) (blk3_apply m c t) (blk4_apply m c t) (blk5_apply m c t) (blk6_apply m c t) (blk7_apply m c t) p

/-- WHAT POINT `t` WRITES BACK TO THE CONTEXT MATRIX is block `t` of the context vectors of the argument arrays. -/
theorem flushed8_eq (c : Dev nD) (t : Fin cfg0.N) :
    (dats m 0 c).flushed 8 t = ((cfg0.win 8).blk t).view.read (Elt Ideal) (ctxOf m c) := by
  show (cfg0.win 8).cut (grid0.coords t) ((dats m 0 c).after 8 t) = _
  rw [after0_8]
  unfold out0_8
  rw [View.canon_unit_zero hz2]
  simp only [View.ld_unit_zero (S := S16x64x2048) hz3, View.ld_unit_zero (S := S2048x1024) hz2, View.ld_unit_zero (S := S1024) hz1, View.ld_unit_zero (S := S16x1024) hz2, View.ld_unit_zero (S := S1024x1024) hz2, View.ld_unit_zero (S := S1x1024) hz2, View.ld_unit_zero (S := S1) hz1]
  refine funext fun (j : S16x2048.Idx) => ?_
  obtain ⟨b, f, rfl⟩ : ∃ (b : Fin 16) (f : Fin 2048), j = ix2 b f := ⟨j 0, j 1, eq_ix2 j⟩
  refine (Body.ctxBlock_apply (iblk m c 0 t) (iblk m c 1 t) (iblk m c 2 t) (iblk m c 3 t) (iblk m c 4 t) (iblk m c 5 t) (iblk m c 6 t) (iblk m c 7 t) _ _ _ _
    (fun b q f => ld_chunk (iblk m c 0 t) 0 (by omega) _ b q f) (fun b q f => ld_chunk (iblk m c 0 t) 16 (by omega) _ b q f)
    (fun b q f => ld_chunk (iblk m c 0 t) 32 (by omega) _ b q f) (fun b q f => ld_chunk (iblk m c 0 t) 48 (by omega) _ b q f) b f).trans ?_
  have he : ((cfg0.win 8).blk t).view.emb (ix2 b f) = ix2 (⟨t.val * 16 + b.val, by have := t_lt t; omega⟩ : Fin 256) f := by
    funext a; apply Fin.ext
    obtain ⟨e0, e1⟩ := idx8 t
    match a with
    | ⟨0, _⟩ => show win0_8.index t (0 : Fin 2) * 16 + 1 * b.val = t.val * 16 + b.val; omega
    | ⟨1, _⟩ => show win0_8.index t (1 : Fin 2) * 2048 + 1 * f.val = f.val; omega
  show _ = ctxOf m c (((cfg0.win 8).blk t).view.emb (ix2 b f))
  rw [he]
  exact Attention.context_congr _ _ _ _ _ _ _ _ _ _ _ _ _ _ _ _ b _ (blk0_apply m c t b) (blk1_apply m c t b) (blk2_apply m c t) (blk3_apply m c t) (blk4_apply m c t) (blk5_apply m c t) (blk6_apply m c t) (blk7_apply m c t) f

/-! ## The blocks cover the arrays -/

/-- The point whose number is `n`. -/
def pt (n : ℕ) (h : n < 16) : Fin cfg0.N := ⟨n, lt_of_lt_of_eq h N_0.symm⟩

/-- An index of the attention matrix is in point `t`'s block iff each coordinate is in the block's range on its axis. -/
theorem mem_blk9 (t : Fin cfg0.N) (i : S256x64.Idx) :
    i ∈ ((cfg0.win 9).blk t).view.set ↔ ∀ a : Fin 2, win0_9.index t a * S16x64.size a ≤ (i a).val ∧ (i a).val < win0_9.index t a * S16x64.size a + S16x64.size a := by
  show i ∈ ((View.whole main_v3_1).slice (win0_9.rect t)).set ↔ _
  rw [View.set_slice_whole, Rect.mem_set_unit]
  exact Iff.rfl

/-- The same for the context matrix. -/
theorem mem_blk8 (t : Fin cfg0.N) (i : S256x2048.Idx) :
    i ∈ ((cfg0.win 8).blk t).view.set ↔ ∀ a : Fin 2, win0_8.index t a * S16x2048.size a ≤ (i a).val ∧ (i a).val < win0_8.index t a * S16x2048.size a + S16x2048.size a := by
  show i ∈ ((View.whole main_v3_0).slice (win0_8.rect t)).set ↔ _
  rw [View.set_slice_whole, Rect.mem_set_unit]
  exact Iff.rfl

/-- Row `r` of the attention matrix is in the block of point `r / 16`. -/
theorem cover9 (i : S256x64.Idx) : ∃ t : Fin cfg0.N, (cfg0.win 9).flush t = true ∧ i ∈ ((cfg0.win 9).blk t).view.set := by
  have hi0 : (i 0).val < 256 := (i 0).isLt
  have hi1 : (i 1).val < 64 := (i 1).isLt
  refine ⟨pt ((i 0).val / 16) (by omega), flush0_9 _, ?_⟩
  rw [mem_blk9]
  obtain ⟨e0, e1⟩ := idx9 (pt ((i 0).val / 16) (by omega))
  have ev : (pt ((i 0).val / 16) (by omega)).val = (i 0).val / 16 := rfl
  intro a
  match a with
  | ⟨0, _⟩ =>
    show win0_9.index (pt ((i 0).val / 16) (by omega)) (0 : Fin 2) * 16 ≤ (i 0).val
      ∧ (i 0).val < win0_9.index (pt ((i 0).val / 16) (by omega)) (0 : Fin 2) * 16 + 16
    rw [e0, ev]; omega
  | ⟨1, _⟩ =>
    show win0_9.index (pt ((i 0).val / 16) (by omega)) (1 : Fin 2) * 64 ≤ (i 1).val
      ∧ (i 1).val < win0_9.index (pt ((i 0).val / 16) (by omega)) (1 : Fin 2) * 64 + 64
    rw [e1]; omega

/-- Row `r` of the context matrix is in the block of point `r / 16`. -/
theorem cover8 (i : S256x2048.Idx) : ∃ t : Fin cfg0.N, (cfg0.win 8).flush t = true ∧ i ∈ ((cfg0.win 8).blk t).view.set := by
  have hi0 : (i 0).val < 256 := (i 0).isLt
  have hi1 : (i 1).val < 2048 := (i 1).isLt
  refine ⟨pt ((i 0).val / 16) (by omega), flush0_8 _, ?_⟩
  rw [mem_blk8]
  obtain ⟨e0, e1⟩ := idx8 (pt ((i 0).val / 16) (by omega))
  have ev : (pt ((i 0).val / 16) (by omega)).val = (i 0).val / 16 := rfl
  intro a
  match a with
  | ⟨0, _⟩ =>
    show win0_8.index (pt ((i 0).val / 16) (by omega)) (0 : Fin 2) * 16 ≤ (i 0).val
      ∧ (i 0).val < win0_8.index (pt ((i 0).val / 16) (by omega)) (0 : Fin 2) * 16 + 16
    rw [e0, ev]; omega
  | ⟨1, _⟩ =>
    show win0_8.index (pt ((i 0).val / 16) (by omega)) (1 : Fin 2) * 2048 ≤ (i 1).val
      ∧ (i 1).val < win0_8.index (pt ((i 0).val / 16) (by omega)) (1 : Fin 2) * 2048 + 2048
    rw [e1]; omega

/-! ## The arrays after the region, and after the host operation that follows it -/

/-- THE ATTENTION MATRIX after the region: the attention weights of the argument arrays. -/
theorem final9 (c : Dev nD) : (dats m 0 c).arrAt 9 cfg0.N = attnOf m c :=
  (dats m 0 c).arrAt_eq_of_cover 9 (attnOf m c) (fun t _ => flushed9_eq m c t) cover9

/-- THE CONTEXT MATRIX after the region: the context vectors of the argument arrays. -/
theorem final8 (c : Dev nD) : (dats m 0 c).arrAt 8 cfg0.N = ctxOf m c :=
  (dats m 0 c).arrAt_eq_of_cover 8 (ctxOf m c) (fun t _ => flushed8_eq m c t) cover8

/-- The `[256, 64]` attention matrix given a trailing unit axis reads, at `(b, p, ·)`, the matrix at `(b, p)`. -/
theorem attnCol_eq (c : Dev nD) :
    broadcastInDim S256x64x1 ![0, 1] bcast_S256x64_S256x64x1_0_1 (attnOf m c) = attnColOf m c := by
  funext i
  obtain ⟨b, p, w, rfl⟩ : ∃ (b : Fin 256) (p : Fin 64) (w : Fin 1), i = ix3 b p w := ⟨i 0, i 1, i 2, eq_ix3 i⟩
  refine (broadcastInDim_apply _ _ (attnOf m c) (ix3 b p w) (ix2 b p) fun a => ?_).trans rfl
  match a with
  | ⟨0, _⟩ => rfl
  | ⟨1, _⟩ => rfl

/-- THE RETURNED ATTENTION ARRAY: the host operation after the region reads the attention matrix the region left. -/
theorem tail_v4 (c : Dev nD) :
    Pipeline.afterTail₀ cfgs (dats m) 0 (V0 m) [hostOps1] c main_v4 = attnColOf m c := by
  unfold Pipeline.afterTail₀
  show StableHlo.after hostOps1 _ (Proc.devRef .tc main_v4) = _
  after_results
  refine Eq.trans ?_ (attnCol_eq m c)
  exact congrArg (broadcastInDim S256x64x1 ![0, 1] bcast_S256x64_S256x64x1_0_1)
    ((Pipeline.withArrays_arr spec0 launch0.win.arr_inj c (V0 m c) (fun w => (dats m 0 c).arrAt w cfg0.N) 9).trans (final9 m c))

/-! ## The run, read -/

/-- Every weakly fair execution of the kernel program terminates with the context matrix and the attention array at
    their functions of the arguments, and the arguments unchanged. -/
theorem run : θ_run defs (onTc (τ := τ) (main (F := Ideal))) ⟨m, fun _ => 0, ρ⟩ fun r => ∀ c : Dev nD,
      r.2.mem ((c : Thread nD τ).loc main_v3_0) = ctxOf m c
      ∧ r.2.mem ((c : Thread nD τ).loc main_v4) = attnColOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1 8).trans (final8 m c),
      (((h c).2 main_v4 (Pipeline.mem_restRefs_of main_v4 (by decide) (by decide))).trans (tail_v4 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c)))⟩)
    (run_main m ρ)

end Cert.KernelIdeal.RunValue

end
-- ==== Proof.RefValue.lean ====
/-
  The reference program's two results, read at an index on the extended reals: its attention weights are the softmax
  weights of the logits of the argument arrays, and its context vector the feature rows weighted by them — the functions
  of `Attention`. Each stage of the reference is read at explicit coordinates from the stage before it; the one maximum
  over the positions is the fold of `max` from -∞, and the further maximum against -∞ that follows it changes nothing.
-/
import proofs.«138666_j33243046871455_3_alg».proof.Proof.Gen.ReferenceIdeal.Read
import proofs.«138666_j33243046871455_3_alg».proof.Proof.Attention
import proofs.«138666_j33243046871455_3_alg».proof.Proof.LibKeepdimsCols

noncomputable section

open scoped BigOperators

namespace Cert.ReferenceIdeal.RefValue

open Idealize.ShloMosaic Idealize.ShloMosaic.ValueIdx Cert.ReferenceIdeal Cert.ReferenceIdeal.Read

/-! ## Two indices with equal coordinates are equal -/

theorem idx1_ext {n0 : ℕ} (i j : (⟨1, ![n0]⟩ : Shape).Idx) (h0 : (i 0).val = (j 0).val) : i = j :=
  funext fun a => Fin.ext (by match a with | ⟨0, _⟩ => exact h0)

theorem idx2_ext {n0 n1 : ℕ} (i j : (⟨2, ![n0, n1]⟩ : Shape).Idx) (h0 : (i 0).val = (j 0).val) (h1 : (i 1).val = (j 1).val) : i = j :=
  funext fun a => Fin.ext (by match a with | ⟨0, _⟩ => exact h0 | ⟨1, _⟩ => exact h1)

theorem idx3_ext {n0 n1 n2 : ℕ} (i j : (⟨3, ![n0, n1, n2]⟩ : Shape).Idx) (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

/-! ## The logits -/

/-- The feature projection plus its bias, at `(b, p, u)`. -/
theorem projF_apply (x0 : FVec Ideal S256x64x2048 .f32) (x2 : FVec Ideal S2048x1024 .f32) (x3 : FVec Ideal S1024 .f32)
    (b : Fin 256) (p : Fin 64) (u : Fin 1024) :
    val_main_v3 (F := Ideal) x0 x2 x3 (ix3 b p u) = (∑ f : Fin 2048, x0 (ix3 b p f) * x2 (ix2 f u)) + x3 (ix1 u) := by
  refine (val_main_v3_apply (F := Ideal) x0 x2 x3 _).trans ?_
  rw [Ideal.addf_def]
  refine congr (congrArg HAdd.hAdd ?_) ?_
  · refine (val_main_v0_apply x0 x2 _).trans ?_
    refine Finset.sum_congr rfl fun f _ => ?_
    refine congr (congrArg HMul.hMul (congrArg x0 ?_)) (congrArg x2 ?_)
    · exact idx3_ext _ _ rfl rfl rfl
    · exact idx2_ext _ _ rfl rfl
  · refine (val_main_v2_apply (F := Ideal) x3 _).trans ?_
    refine (val_main_v1_apply (F := Ideal) x3 _).trans ?_
    exact congrArg x3 (idx1_ext _ _ rfl)

/-- The hidden projection plus its bias, at `(b, u)`. -/
theorem projH_apply (x1 : FVec Ideal S256x1024 .f32) (x4 : FVec Ideal S1024x1024 .f32) (x5 : FVec Ideal S1024 .f32)
    (b : Fin 256) (u : Fin 1024) :
    val_main_v7 (F := Ideal) x1 x4 x5 (ix2 b u) = (∑ k : Fin 1024, x1 (ix2 b k) * x4 (ix2 k u)) + x5 (ix1 u) := by
  refine (val_main_v7_apply (F := Ideal) x1 x4 x5 _).trans ?_
  rw [Ideal.addf_def]
  refine congr (congrArg HAdd.hAdd ?_) ?_
  · refine (val_main_v4_apply x1 x4 _).trans ?_
    refine Finset.sum_congr rfl fun k _ => ?_
    refine congr (congrArg HMul.hMul (congrArg x1 ?_)) (congrArg x4 ?_)
    · exact idx2_ext _ _ rfl rfl
    · exact idx2_ext _ _ rfl rfl
  · refine (val_main_v6_apply (F := Ideal) x5 _).trans ?_
    refine (val_main_v5_apply (F := Ideal) x5 _).trans ?_
    exact congrArg x5 (idx1_ext _ _ rfl)

/-- The score, at `(b, p, u)`. -/
theorem score_apply (x0 : FVec Ideal S256x64x2048 .f32) (x1 : FVec Ideal S256x1024 .f32) (x2 : FVec Ideal S2048x1024 .f32)
    (x3 : FVec Ideal S1024 .f32) (x4 : FVec Ideal S1024x1024 .f32) (x5 : FVec Ideal S1024 .f32) (b : Fin 256) (p : Fin 64) (u : Fin 1024) :
    val_main_v11 (F := Ideal) x0 x1 x2 x3 x4 x5 (ix3 b p u)
      = Ideal.tanh (((∑ f : Fin 2048, x0 (ix3 b p f) * x2 (ix2 f u)) + x3 (ix1 u)) + ((∑ k : Fin 1024, x1 (ix2 b k) * x4 (ix2 k u)) + x5 (ix1 u))) := by
  refine (val_main_v11_apply (F := Ideal) x0 x1 x2 x3 x4 x5 _).trans ?_
  rw [Ideal.hostUnary_tanh_def]
  refine congrArg Ideal.tanh ?_
  refine (val_main_v10_apply (F := Ideal) x0 x1 x2 x3 x4 x5 _).trans ?_
  rw [Ideal.addf_def]
  refine congr (congrArg HAdd.hAdd ?_) ?_
  · exact projF_apply x0 x2 x3 b p u
  · refine (val_main_v9_apply (F := Ideal) x1 x4 x5 _).trans ?_
    refine (val_main_v8_apply (F := Ideal) x1 x4 x5 _).trans ?_
    have hi : idx_main_v8 (idx_main_v9 (ix3 b p u)) = ix2 b u := idx2_ext _ _ rfl rfl
    rw [hi]
    exact projH_apply x1 x4 x5 b u

/-- The logits, at `(b, p)`: those of the argument arrays' row `b`, the scoring vector the one column of the `[1024, 1]`
    argument. -/
theorem logits_apply (x0 : FVec Ideal S256x64x2048 .f32) (x1 : FVec Ideal S256x1024 .f32) (x2 : FVec Ideal S2048x1024 .f32) (x3 : FVec Ideal S1024 .f32) (x4 : FVec Ideal S1024x1024 .f32) (x5 : FVec Ideal S1024 .f32) (x6 : FVec Ideal S1024x1 .f32) (x7 : FVec Ideal S1 .f32) (b : Fin 256) (p : Fin 64) (w : Fin 1) :
    val_main_v15 (F := Ideal) x0 x1 x2 x3 x4 x5 x6 x7 (ix3 b p w) = Attention.logits x0 x1 x2 x3 x4 x5 (fun u => x6 (ix2 u (0 : Fin 1))) (x7 (ix1 (0 : Fin 1))) b p := by
  have hw : w = 0 := Subsingleton.elim _ _
  subst hw
  unfold Attention.logits Attention.logit
  dsimp only
  refine (val_main_v15_apply (F := Ideal) x0 x1 x2 x3 x4 x5 x6 x7 _).trans ?_
  rw [Ideal.addf_def]
  refine congr (congrArg HAdd.hAdd ?_) ?_
  · refine (val_main_v12_apply x0 x1 x2 x3 x4 x5 x6 _).trans ?_
    refine Finset.sum_congr rfl fun u _ => ?_
    have hl : lidx_main_v12 (ix3 b p (0 : Fin 1)) u = ix3 b p u := idx3_ext _ _ rfl rfl rfl
    have hr : ridx_main_v12 (ix3 b p (0 : Fin 1)) u = ix2 u (0 : Fin 1) := idx2_ext _ _ rfl rfl
    rw [hl, hr, score_apply x0 x1 x2 x3 x4 x5 b p u]
  · refine (val_main_v14_apply (F := Ideal) x7 _).trans ?_
    refine (val_main_v13_apply (F := Ideal) x7 _).trans ?_
    exact congrArg x7 (idx1_ext _ _ rfl)

/-! ## The softmax -/

/-- The row maximum, at `(b, ·)`: the fold of `max` over the positions from -∞; the maximum against -∞ that the reference
    takes afterwards leaves it as it is. -/
theorem rowMax_apply (x0 : FVec Ideal S256x64x2048 .f32) (x1 : FVec Ideal S256x1024 .f32) (x2 : FVec Ideal S2048x1024 .f32) (x3 : FVec Ideal S1024 .f32) (x4 : FVec Ideal S1024x1024 .f32) (x5 : FVec Ideal S1024 .f32) (x6 : FVec Ideal S1024x1 .f32) (x7 : FVec Ideal S1 .f32) (b : Fin 256) (w : Fin 1) :
    val_main_v18 (F := Ideal) x0 x1 x2 x3 x4 x5 x6 x7 (ix2 b w) = Attention.rowMax (fun q => Attention.logits x0 x1 x2 x3 x4 x5 (fun u => x6 (ix2 u (0 : Fin 1))) (x7 (ix1 (0 : Fin 1))) b q) := by
  have hw : w = 0 := Subsingleton.elim _ _
  subst hw
  refine (val_main_v18_apply (F := Ideal) x0 x1 x2 x3 x4 x5 x6 x7 _).trans ?_
  rw [Ideal.maximumf_def, val_main_v17_apply (F := Ideal), val_main_cst_0_apply (F := Ideal), Ideal.ofBits_def]
  refine (LibKeepdimsCols.max_negInf_f32 _).trans ?_
  unfold val_main_v16 Attention.rowMax
  refine (LibKeepdimsCols.hostReduce_maximumf_mid _ _ _ (by decide) _ b 0).trans ?_
  exact congrArg (fun g => Finset.fold max (Ideal.ofBits .f32 0xFF800000#32) g (Finset.univ : Finset (Fin 64)))
    (funext fun q => logits_apply x0 x1 x2 x3 x4 x5 x6 x7 b q 0)

/-- The exponentials, at `(b, p)`. -/
theorem expRow_apply (x0 : FVec Ideal S256x64x2048 .f32) (x1 : FVec Ideal S256x1024 .f32) (x2 : FVec Ideal S2048x1024 .f32) (x3 : FVec Ideal S1024 .f32) (x4 : FVec Ideal S1024x1024 .f32) (x5 : FVec Ideal S1024 .f32) (x6 : FVec Ideal S1024x1 .f32) (x7 : FVec Ideal S1 .f32) (b : Fin 256) (p : Fin 64) (w : Fin 1) :
    val_main_v22 (F := Ideal) x0 x1 x2 x3 x4 x5 x6 x7 (ix3 b p w) = Attention.expRow (fun q => Attention.logits x0 x1 x2 x3 x4 x5 (fun u => x6 (ix2 u (0 : Fin 1))) (x7 (ix1 (0 : Fin 1))) b q) p := by
  unfold Attention.expRow
  refine (val_main_v22_apply (F := Ideal) x0 x1 x2 x3 x4 x5 x6 x7 _).trans ?_
  rw [Ideal.hostUnary_exp_def]
  refine congrArg Ideal.exp ?_
  refine (val_main_v21_apply (F := Ideal) x0 x1 x2 x3 x4 x5 x6 x7 _).trans ?_
  rw [Ideal.subf_def]
  refine congr (congrArg HSub.hSub ?_) ?_
  · exact logits_apply x0 x1 x2 x3 x4 x5 x6 x7 b p w
  · refine (val_main_v20_apply (F := Ideal) x0 x1 x2 x3 x4 x5 x6 x7 _).trans ?_
    refine (val_main_v19_apply (F := Ideal) x0 x1 x2 x3 x4 x5 x6 x7 _).trans ?_
    have hi : idx_main_v19 (idx_main_v20 (ix3 b p w)) = ix2 b (0 : Fin 1) := idx2_ext _ _ rfl rfl
    rw [hi]
    exact rowMax_apply x0 x1 x2 x3 x4 x5 x6 x7 b 0

/-- THE ATTENTION WEIGHTS: the reference's second result at `(b, p, ·)` is the softmax weight of position `p` in row `b`. -/
theorem weights_apply (x0 : FVec Ideal S256x64x2048 .f32) (x1 : FVec Ideal S256x1024 .f32) (x2 : FVec Ideal S2048x1024 .f32) (x3 : FVec Ideal S1024 .f32) (x4 : FVec Ideal S1024x1024 .f32) (x5 : FVec Ideal S1024 .f32) (x6 : FVec Ideal S1024x1 .f32) (x7 : FVec Ideal S1 .f32) (b : Fin 256) (p : Fin 64) (w : Fin 1) :
    val_main_v26 (F := Ideal) x0 x1 x2 x3 x4 x5 x6 x7 (ix3 b p w)
      = Attention.weights x0 x1 x2 x3 x4 x5 (fun u => x6 (ix2 u (0 : Fin 1))) (x7 (ix1 (0 : Fin 1))) b p := by
  unfold Attention.weights Attention.softmaxRow
  refine (val_main_v26_apply (F := Ideal) x0 x1 x2 x3 x4 x5 x6 x7 _).trans ?_
  rw [Ideal.hostDivf_def]
  refine congr (congrArg Ideal.div ?_) ?_
  · exact expRow_apply x0 x1 x2 x3 x4 x5 x6 x7 b p w
  · refine (val_main_v25_apply (F := Ideal) x0 x1 x2 x3 x4 x5 x6 x7 _).trans ?_
    refine (val_main_v24_apply (F := Ideal) x0 x1 x2 x3 x4 x5 x6 x7 _).trans ?_
    refine (val_main_v23_apply x0 x1 x2 x3 x4 x5 x6 x7 _).trans ?_
    have hz : ∀ i, (val_main_cst_1 (F := Ideal)) i = 0 := fun _ => Ideal.ofBits_zero_f32
    rw [hz, zero_add]
    refine Finset.sum_congr rfl fun q _ => ?_
    have hi : idx_main_v23 (idx_main_v24 (idx_main_v25 (ix3 b p w))) q = ix3 b q (0 : Fin 1) := idx3_ext _ _ rfl rfl rfl
    rw [hi]
    exact expRow_apply x0 x1 x2 x3 x4 x5 x6 x7 b q 0

/-- THE CONTEXT VECTOR: the reference's first result at `(b, f)` is the feature rows of row `b` weighted by its softmax
    weights and summed over the positions. -/
theorem context_apply (x0 : FVec Ideal S256x64x2048 .f32) (x1 : FVec Ideal S256x1024 .f32) (x2 : FVec Ideal S2048x1024 .f32) (x3 : FVec Ideal S1024 .f32) (x4 : FVec Ideal S1024x1024 .f32) (x5 : FVec Ideal S1024 .f32) (x6 : FVec Ideal S1024x1 .f32) (x7 : FVec Ideal S1 .f32) (b : Fin 256) (f : Fin 2048) :
    val_main_v29 (F := Ideal) x0 x1 x2 x3 x4 x5 x6 x7 (ix2 b f)
      = Attention.context x0 x1 x2 x3 x4 x5 (fun u => x6 (ix2 u (0 : Fin 1))) (x7 (ix1 (0 : Fin 1))) b f := by
  unfold Attention.context Attention.ctxRow
  refine (val_main_v29_apply x0 x1 x2 x3 x4 x5 x6 x7 _).trans ?_
  have hz : ∀ i, (val_main_cst_2 (F := Ideal)) i = 0 := fun _ => Ideal.ofBits_zero_f32
  rw [hz, zero_add]
  refine Finset.sum_congr rfl fun q _ => ?_
  have hi : idx_main_v29 (ix2 b f) q = ix3 b q f := idx3_ext _ _ rfl rfl rfl
  rw [hi]
  refine (val_main_v28_apply (F := Ideal) x0 x1 x2 x3 x4 x5 x6 x7 _).trans ?_
  rw [Ideal.mulf_def]
  refine congr (congrArg HMul.hMul ?_) rfl
  refine (val_main_v27_apply (F := Ideal) x0 x1 x2 x3 x4 x5 x6 x7 _).trans ?_
  have hj : idx_main_v27 (ix3 b q f) = ix3 b q (0 : Fin 1) := idx3_ext _ _ rfl rfl rfl
  rw [hj]
  exact weights_apply x0 x1 x2 x3 x4 x5 x6 x7 b q 0

end Cert.ReferenceIdeal.RefValue

end
-- ==== Proof.lean ====
/-
  Additive (Bahdanau) attention: a batch-tiled kernel against its plain reference, on the extended reals.

  Both programs compute, for every batch row, the logits  Σ_u tanh ((x_p · W1 + b1)_u + (h · W2 + b2)_u) · v_u + vb  of the 64
  positions, their softmax over the positions (each logit less the row's maximum, exponentiated, over the sum of the
  exponentials), and the context vector  Σ_p softmax_p · x_p.  The kernel handles sixteen batch rows per grid point, changes
  the operands of its two matrix products to a narrower float format (the identity on the extended reals), takes the score
  against the transposed scoring vector by a lane sum where the reference contracts with the `[1024, 1]` matrix, and adds up
  the context vector in four chunks of sixteen positions into a zero accumulator with each product's factors in the other
  order; the reference takes one more maximum against -∞ after its maximum over the positions. None of this changes a value:
  the sums are the same sums regrouped and the products commute, which holds on the extended reals without any finiteness,
  so the precondition is never opened. The ideal pass rewrote nothing, so the idealized kernel is the kernel's own text.

  `Attention` states the mathematics once, per batch row; `RefValue` reads the reference's two results as those functions of
  the arguments; `BodyValue` reads what one grid point stores, from its blocks; `KernelRun` carries the blocks to the whole
  arrays (point `t` holds rows `16·t … 16·t+15`), through the host operation that gives the attention matrix its unit axis.
-/
import proofs.«138666_j33243046871455_3_alg».proof.Defs
import proofs.«138666_j33243046871455_3_alg».proof.Proof.Gen.Kernel
import proofs.«138666_j33243046871455_3_alg».proof.Proof.Gen.Kernel.Skeleton
import proofs.«138666_j33243046871455_3_alg».proof.Proof.Gen.Kernel.Launch
import proofs.«138666_j33243046871455_3_alg».proof.Proof.Gen.Kernel.Points
import proofs.«138666_j33243046871455_3_alg».proof.Proof.Gen.Kernel.Frame
import proofs.«138666_j33243046871455_3_alg».proof.Proof.Gen.KernelIdeal
import proofs.«138666_j33243046871455_3_alg».proof.Proof.Gen.KernelIdeal.Skeleton
import proofs.«138666_j33243046871455_3_alg».proof.Proof.Gen.KernelIdeal.Launch
import proofs.«138666_j33243046871455_3_alg».proof.Proof.Gen.KernelIdeal.Points
import proofs.«138666_j33243046871455_3_alg».proof.Proof.Gen.KernelIdeal.Frame
import proofs.«138666_j33243046871455_3_alg».proof.Proof.Gen.ReferenceIdeal
import proofs.«138666_j33243046871455_3_alg».proof.Proof.Gen.ReferenceIdeal.Run
import proofs.«138666_j33243046871455_3_alg».proof.Proof.Gen.ReferenceIdeal.Read
import proofs.«138666_j33243046871455_3_alg».proof.Proof.Gen.Pre_finite_inputs
import proofs.«138666_j33243046871455_3_alg».proof.Proof.KernelRun
import proofs.«138666_j33243046871455_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its idealization. -/
theorem preserves : Cert.preserves_Kernel_KernelIdeal := trivial

/-- From memories that agree on the arguments both programs end with the context vectors and the attention weights of the
    argument arrays: the kernel's run read through its blocks, the reference's run read stage by stage. -/
theorem algebraic : Cert.algebraic_KernelIdeal_ReferenceIdeal := by
  intro m ρ m' ρ' _ hagree
  refine ⟨fun c => Cert.KernelIdeal.RunValue.ctxOf m c, fun c => Cert.KernelIdeal.RunValue.attnColOf m c,
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v29_eq, a0, a1, a2, a3, a4, a5, a6, a7]
    refine funext fun (i : Cert.KernelIdeal.S256x2048.Idx) => ?_
    obtain ⟨b, f, rfl⟩ : ∃ (b : Fin 256) (f : Fin 2048), i = ix2 b f := ⟨i 0, i 1, eq_ix2 i⟩
    exact Cert.ReferenceIdeal.RefValue.context_apply _ _ _ _ _ _ _ _ b f
  · obtain ⟨a0, a1, a2, a3, a4, a5, a6, a7⟩ := hagree c
    rw [Cert.ReferenceIdeal.Read.val_main_v26_eq, a0, a1, a2, a3, a4, a5, a6, a7]
    refine funext fun (i : Cert.KernelIdeal.S256x64x1.Idx) => ?_
    obtain ⟨b, p, w, rfl⟩ : ∃ (b : Fin 256) (p : Fin 64) (w : Fin 1), i = ix3 b p w := ⟨i 0, i 1, i 2, eq_ix3 i⟩
    exact Cert.ReferenceIdeal.RefValue.weights_apply _ _ _ _ _ _ _ _ b p w

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
